-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S625000 : Shape := ⟨1, ![625000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000 : S_.BroadcastsInDim S625000 (![] : Fin 0 → Fin S625000.rank)
  reducesTo_S625000_S_d0 : S625000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x625000 32) (main_arg2 : FVec F S625000 .f32) (main_arg3 : IVec S50000 32) (main_arg4 : FVec F S128x128 .f32) (main_arg5 : FVec F S128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000 .f32 := Host.absf main_arg2
  let main_cst_0 : FVec F S_ .f32 := constant S_ .f32 0x7F800000#32
  let main_v5 : FVec F S625000 .f32 := broadcastInDim S625000 ![] bcast_S_S625000 main_cst_0
  let main_v6 : IVec S625000 1 := cmpf .olt main_v4 main_v5
  let main_c_1 : IVec S_ 1 := constantI S_ 1 1#1
  let main_v7 : IVec S_ 1 := (fun x v => Host.reduce IntOp.andi x v reducesTo_S625000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S50000x128 : Shape := ⟨2, ![50000, 128]⟩
abbrev S2x625000 : Shape := ⟨2, ![2, 625000]⟩
abbrev S625000 : Shape := ⟨1, ![625000]⟩
abbrev S50000 : Shape := ⟨1, ![50000]⟩
abbrev S128x128 : Shape := ⟨2, ![128, 128]⟩
abbrev S128 : Shape := ⟨1, ![128]⟩
abbrev S1x625000 : Shape := ⟨2, ![1, 625000]⟩
abbrev S675000 : Shape := ⟨1, ![675000]⟩
abbrev S_ : Shape := ⟨0, ![]⟩
abbrev S675000x1 : Shape := ⟨2, ![675000, 1]⟩
abbrev S5000x128 : Shape := ⟨2, ![5000, 128]⟩
abbrev S675000x128 : Shape := ⟨2, ![675000, 128]⟩
abbrev S1x128 : Shape := ⟨2, ![1, 128]⟩
abbrev S50000x1 : Shape := ⟨2, ![50000, 1]⟩
abbrev S128x1 : Shape := ⟨2, ![128, 1]⟩

abbrev nBuf : Space → Nat
  | .hbm => 130
  | .vmem => 16
  | .smem => 0
  | _ => 0

abbrev hbmTy0_0 (i : Nat) : BufTy := match i % 128 with
  | 0 => ⟨S50000x128, .f32⟩
  | 1 => ⟨S2x625000, .i32⟩
  | 2 => ⟨S625000, .f32⟩
  | 3 => ⟨S50000, .i32⟩
  | 4 => ⟨S128x128, .f32⟩
  | 5 => ⟨S128, .f32⟩
  | 6 => ⟨S128, .f32⟩
  | 7 => ⟨S128, .f32⟩
  | 8 => ⟨S128, .f32⟩
  | 9 => ⟨S1x625000, .i32⟩
  | 10 => ⟨S625000, .i32⟩
  | 11 => ⟨S1x625000, .i32⟩
  | 12 => ⟨S625000, .i32⟩
  | 13 => ⟨S50000, .i32⟩
  | 14 => ⟨S675000, .i32⟩
  | 15 => ⟨S675000, .i32⟩
  | 16 => ⟨S_, .f32⟩
  | 17 => ⟨S50000, .f32⟩
  | 18 => ⟨S675000, .f32⟩
  | 19 => ⟨S_, .f32⟩
  | 20 => ⟨S50000, .f32⟩
  | 21 => ⟨S675000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S675000, .i32⟩
  | 33 => ⟨S675000, .i1⟩
  | 34 => ⟨S_, .i32⟩
  | 35 => ⟨S675000, .i32⟩
  | 36 => ⟨S675000, .i32⟩
  | 37 => ⟨S675000, .i32⟩
  | 38 => ⟨S675000x1, .i32⟩
  | 39 => ⟨S675000, .f32⟩
  | 40 => ⟨S675000, .f32⟩
  | 41 => ⟨S_, .i32⟩
  | 42 => ⟨S675000, .i32⟩
  | 43 => ⟨S675000, .i1⟩
  | 44 => ⟨S_, .i32⟩
  | 45 => ⟨S675000, .i32⟩
  | 46 => ⟨S675000, .i32⟩
  | 47 => ⟨S675000, .i32⟩
  | 48 => ⟨S675000x1, .i32⟩
  | 49 => ⟨S675000, .f32⟩
  | 50 => ⟨S675000, .f32⟩
  | 51 => ⟨S128x128, .f32⟩
  | 52 => ⟨S50000x128, .f32⟩
  | 53 => ⟨S675000x1, .f32⟩
  | 54 => ⟨S_, .i32⟩
  | 55 => ⟨S675000, .i32⟩
  | 56 => ⟨S675000, .i1⟩
  | 57 => ⟨S_, .i32⟩
  | 58 => ⟨S675000, .i32⟩
  | 59 => ⟨S675000, .i32⟩
  | 60 => ⟨S675000, .i32⟩
  | 61 => ⟨S675000x1, .i32⟩
  | 62 => ⟨S675000x128, .f32⟩
  | 63 => ⟨S675000x128, .f32⟩
  | 64 => ⟨S675000x128, .f32⟩
  | 65 => ⟨S_, .f32⟩
  | 66 => ⟨S50000x128, .f32⟩
  | 67 => ⟨S675000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000, .f32⟩
  | 74 => ⟨S_, .f32⟩
  | 75 => ⟨S128, .f32⟩
  | 76 => ⟨S50000x1, .i32⟩
  | 77 => ⟨S128, .f32⟩
  | 78 => ⟨S_, .f32⟩
  | 79 => ⟨S128, .f32⟩
  | 80 => ⟨S128, .f32⟩
  | 81 => ⟨S128x1, .f32⟩
  | 82 => ⟨S_, .f32⟩
  | 83 => ⟨S128x128, .f32⟩
  | 84 => ⟨S50000x1, .i32⟩
  | 85 => ⟨S128x128, .f32⟩
  | 86 => ⟨S128x128, .f32⟩
  | 87 => ⟨S128x128, .f32⟩
  | 88 => ⟨S50000x128, .f32⟩
  | 89 => ⟨S_, .f32⟩
  | 90 => ⟨S128x128, .f32⟩
  | 91 => ⟨S50000x1, .i32⟩
  | 92 => ⟨S128x128, .f32⟩
  | 93 => ⟨S128x128, .f32⟩
  | 94 => ⟨S128x128, .f32⟩
  | 95 => ⟨S1x128, .f32⟩
  | 96 => ⟨S128x128, .f32⟩
  | 97 => ⟨S_, .f32⟩
  | 98 => ⟨S1x128, .f32⟩
  | 99 => ⟨S1x128, .f32⟩
  | 100 => ⟨S1x128, .f32⟩
  | 101 => ⟨S1x128, .f32⟩
  | 102 => ⟨S128x128, .f32⟩
  | 103 => ⟨S128x128, .f32⟩
  | 104 => ⟨S128x128, .f32⟩
  | 105 => ⟨S_, .f32⟩
  | 106 => ⟨S128x128, .f32⟩
  | 107 => ⟨S128x128, .f32⟩
  | 108 => ⟨S_, .i32⟩
  | 109 => ⟨S50000, .i32⟩
  | 110 => ⟨S50000, .i1⟩
  | 111 => ⟨S_, .i32⟩
  | 112 => ⟨S50000, .i32⟩
  | 113 => ⟨S50000, .i32⟩
  | 114 => ⟨S50000, .i32⟩
  | 115 => ⟨S50000x1, .i32⟩
  | 116 => ⟨S50000x128, .f32⟩
  | 117 => ⟨S_, .i32⟩
  | 118 => ⟨S50000, .i32⟩
  | 119 => ⟨S50000, .i1⟩
  | 120 => ⟨S_, .i32⟩
  | 121 => ⟨S50000, .i32⟩
  | 122 => ⟨S50000, .i32⟩
  | 123 => ⟨S50000, .i32⟩
  | 124 => ⟨S50000x1, .i32⟩
  | 125 => ⟨S50000x128, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_c_16 : Ref sig .tc := ⟨.hbm, 108, rfl⟩
abbrev main_v79 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_18 : Ref sig .tc := ⟨.hbm, 117, rfl⟩
abbrev main_v86 : Ref sig .tc := ⟨.hbm, 118, rfl⟩
abbrev main_v87 : Ref sig .tc := ⟨.hbm, 119, rfl⟩
abbrev main_c_19 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S625000_S50000_S675000_d0 : Shape.Concatenates [S625000, S50000] S675000 0
  bcast_S_S50000 : S_.BroadcastsInDim S50000 (![] : Fin 0 → Fin S50000.rank)
  bcast_S675000_S675000x1_0 : S675000.BroadcastsInDim S675000x1 (![0] : Fin 1 → Fin S675000x1.rank)
  bcast_S_S675000 : S_.BroadcastsInDim S675000 (![] : Fin 0 → Fin S675000.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S50000_S50000x1_0 : S50000.BroadcastsInDim S50000x1 (![0] : Fin 1 → Fin S50000x1.rank)
  bcast_S128_S128x1_0 : S128.BroadcastsInDim S128x1 (![0] : Fin 1 → Fin S128x1.rank)
  bcast_S_S128x128 : S_.BroadcastsInDim S128x128 (![] : Fin 0 → Fin S128x128.rank)
  bcast_S128x1_S128x128_0_1 : S128x1.BroadcastsInDim S128x128 (![0, 1] : Fin 2 → Fin S128x128.rank)
  bcast_S_S1x128 : S_.BroadcastsInDim S1x128 (![] : Fin 0 → Fin S1x128.rank)
  bcast_S1x128_S128x128_0_1 : S1x128.BroadcastsInDim S128x128 (![0, 1] : Fin 2 → Fin S128x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S5000x128_S128x128_S5000x128_1_0_0_1_n_n_wf : DotDims.WF S5000x128 S128x128 S5000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  gather_S128x128_S50000x1_S50000x128_1_0_n_n_0_1_1128_wf : GatherDims.WF S128x128 S50000x1 S50000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def gather_S128x128_S50000x1_S50000x128_1_0_n_n_0_1_1128 : GatherDims S128x128 S50000x1 S50000x128 where
  offsetDims := [1]
  collapsedSliceDims := [0]
  operandBatchingDims := []
  startIndicesBatchingDims := []
  startIndexMap := [0]
  indexVectorDim := 1
  sliceSizes := ![1, 128]
  wf := gather_S128x128_S50000x1_S50000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v92) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v93) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v94) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v96) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S625000 : Shape := ⟨1, ![625000]⟩
abbrev S50000 : Shape := ⟨1, ![50000]⟩
abbrev S128x128 : Shape := ⟨2, ![128, 128]⟩
abbrev S128 : Shape := ⟨1, ![128]⟩
abbrev S1x625000 : Shape := ⟨2, ![1, 625000]⟩
abbrev S675000 : Shape := ⟨1, ![675000]⟩
abbrev S_ : Shape := ⟨0, ![]⟩
abbrev S675000x1 : Shape := ⟨2, ![675000, 1]⟩
abbrev S675000x128 : Shape := ⟨2, ![675000, 128]⟩
abbrev S1x128 : Shape := ⟨2, ![1, 128]⟩
abbrev S50000x1 : Shape := ⟨2, ![50000, 1]⟩
abbrev S128x1 : Shape := ⟨2, ![128, 1]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x625000, .i32⟩
  | 2 => ⟨S625000, .f32⟩
  | 3 => ⟨S50000, .i32⟩
  | 4 => ⟨S128x128, .f32⟩
  | 5 => ⟨S128, .f32⟩
  | 6 => ⟨S128, .f32⟩
  | 7 => ⟨S128, .f32⟩
  | 8 => ⟨S128, .f32⟩
  | 9 => ⟨S1x625000, .i32⟩
  | 10 => ⟨S625000, .i32⟩
  | 11 => ⟨S1x625000, .i32⟩
  | 12 => ⟨S625000, .i32⟩
  | 13 => ⟨S50000, .i32⟩
  | 14 => ⟨S675000, .i32⟩
  | 15 => ⟨S675000, .i32⟩
  | 16 => ⟨S_, .f32⟩
  | 17 => ⟨S50000, .f32⟩
  | 18 => ⟨S675000, .f32⟩
  | 19 => ⟨S_, .f32⟩
  | 20 => ⟨S50000, .f32⟩
  | 21 => ⟨S675000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S675000, .i32⟩
  | 33 => ⟨S675000, .i1⟩
  | 34 => ⟨S_, .i32⟩
  | 35 => ⟨S675000, .i32⟩
  | 36 => ⟨S675000, .i32⟩
  | 37 => ⟨S675000, .i32⟩
  | 38 => ⟨S675000x1, .i32⟩
  | 39 => ⟨S675000, .f32⟩
  | 40 => ⟨S675000, .f32⟩
  | 41 => ⟨S_, .i32⟩
  | 42 => ⟨S675000, .i32⟩
  | 43 => ⟨S675000, .i1⟩
  | 44 => ⟨S_, .i32⟩
  | 45 => ⟨S675000, .i32⟩
  | 46 => ⟨S675000, .i32⟩
  | 47 => ⟨S675000, .i32⟩
  | 48 => ⟨S675000x1, .i32⟩
  | 49 => ⟨S675000, .f32⟩
  | 50 => ⟨S675000, .f32⟩
  | 51 => ⟨S128x128, .f32⟩
  | 52 => ⟨S50000x128, .f32⟩
  | 53 => ⟨S675000x1, .f32⟩
  | 54 => ⟨S_, .i32⟩
  | 55 => ⟨S675000, .i32⟩
  | 56 => ⟨S675000, .i1⟩
  | 57 => ⟨S_, .i32⟩
  | 58 => ⟨S675000, .i32⟩
  | 59 => ⟨S675000, .i32⟩
  | 60 => ⟨S675000, .i32⟩
  | 61 => ⟨S675000x1, .i32⟩
  | 62 => ⟨S675000x128, .f32⟩
  | 63 => ⟨S675000x128, .f32⟩
  | 64 => ⟨S675000x128, .f32⟩
  | 65 => ⟨S_, .f32⟩
  | 66 => ⟨S50000x128, .f32⟩
  | 67 => ⟨S675000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000, .f32⟩
  | 74 => ⟨S_, .f32⟩
  | 75 => ⟨S128, .f32⟩
  | 76 => ⟨S50000x1, .i32⟩
  | 77 => ⟨S128, .f32⟩
  | 78 => ⟨S_, .f32⟩
  | 79 => ⟨S128, .f32⟩
  | 80 => ⟨S128, .f32⟩
  | 81 => ⟨S128x1, .f32⟩
  | 82 => ⟨S_, .f32⟩
  | 83 => ⟨S128x128, .f32⟩
  | 84 => ⟨S50000x1, .i32⟩
  | 85 => ⟨S128x128, .f32⟩
  | 86 => ⟨S128x128, .f32⟩
  | 87 => ⟨S128x128, .f32⟩
  | 88 => ⟨S_, .i32⟩
  | 89 => ⟨S50000, .i32⟩
  | 90 => ⟨S50000, .i1⟩
  | 91 => ⟨S_, .i32⟩
  | 92 => ⟨S50000, .i32⟩
  | 93 => ⟨S50000, .i32⟩
  | 94 => ⟨S50000, .i32⟩
  | 95 => ⟨S50000x1, .i32⟩
  | 96 => ⟨S50000x128, .f32⟩
  | 97 => ⟨S1x128, .f32⟩
  | 98 => ⟨S50000x128, .f32⟩
  | 99 => ⟨S50000x128, .f32⟩
  | 100 => ⟨S50000x128, .f32⟩
  | 101 => ⟨S50000x128, .f32⟩
  | 102 => ⟨S_, .f32⟩
  | 103 => ⟨S128x128, .f32⟩
  | 104 => ⟨S50000x1, .i32⟩
  | 105 => ⟨S128x128, .f32⟩
  | 106 => ⟨S128x128, .f32⟩
  | 107 => ⟨S128x128, .f32⟩
  | 108 => ⟨S_, .f32⟩
  | 109 => ⟨S128x128, .f32⟩
  | 110 => ⟨S128x128, .f32⟩
  | 111 => ⟨S128x128, .f32⟩
  | 112 => ⟨S_, .i32⟩
  | 113 => ⟨S50000, .i32⟩
  | 114 => ⟨S50000, .i1⟩
  | 115 => ⟨S_, .i32⟩
  | 116 => ⟨S50000, .i32⟩
  | 117 => ⟨S50000, .i32⟩
  | 118 => ⟨S50000, .i32⟩
  | 119 => ⟨S50000x1, .i32⟩
  | 120 => ⟨S50000x128, .f32⟩
  | 121 => ⟨S1x128, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_17 : Ref sig .tc := ⟨.hbm, 112, rfl⟩
abbrev main_v82 : Ref sig .tc := ⟨.hbm, 113, rfl⟩
abbrev main_v83 : Ref sig .tc := ⟨.hbm, 114, rfl⟩
abbrev main_c_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_call1_cst : Ref sig .tc := ⟨.hbm, 128, rfl⟩
abbrev main_call1_v0 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S625000_S50000_S675000_d0 : Shape.Concatenates [S625000, S50000] S675000 0
  bcast_S_S50000 : S_.BroadcastsInDim S50000 (![] : Fin 0 → Fin S50000.rank)
  bcast_S675000_S675000x1_0 : S675000.BroadcastsInDim S675000x1 (![0] : Fin 1 → Fin S675000x1.rank)
  bcast_S_S675000 : S_.BroadcastsInDim S675000 (![] : Fin 0 → Fin S675000.rank)
  transposes_S128x128_S128x128_1_0 : S128x128.Transposes [1, 0] S128x128
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S50000_S50000x1_0 : S50000.BroadcastsInDim S50000x1 (![0] : Fin 1 → Fin S50000x1.rank)
  bcast_S128_S128x1_0 : S128.BroadcastsInDim S128x1 (![0] : Fin 1 → Fin S128x1.rank)
  bcast_S_S128x128 : S_.BroadcastsInDim S128x128 (![] : Fin 0 → Fin S128x128.rank)
  bcast_S128x1_S128x128_0_1 : S128x1.BroadcastsInDim S128x128 (![0, 1] : Fin 2 → Fin S128x128.rank)
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S50000x128_S128x128_S50000x128_1_0_0_1_n_n_wf : DotDims.WF S50000x128 S128x128 S50000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  gather_S128x128_S50000x1_S50000x128_1_0_n_n_0_1_1128_wf : GatherDims.WF S128x128 S50000x1 S50000x128 [1] [0] [] [0] [] 1 ![1, 128]

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def gather_S128x128_S50000x1_S50000x128_1_0_n_n_0_1_1128 : GatherDims S128x128 S50000x1 S50000x128 where
  offsetDims := [1]
  collapsedSliceDims := [0]
  operandBatchingDims := []
  startIndicesBatchingDims := []
  startIndexMap := [0]
  indexVectorDim := 1
  sliceSizes := ![1, 128]
  wf := gather_S128x128_S50000x1_S50000x128_1_0_n_n_0_1_1128_wf

class Facts : Prop extends Facts₀ where

variable [Facts]
-- ==== Proof.LibRowScatterAdd.lean ====
/-
  THE ROW SCATTER-ADD READ AT AN INDEX. For an operand `x : [N, C]`, an integer array of `E` row numbers and updates
  `upd : [E, C]`, the arrays `jax.ops.segment_sum(upd, idx)` and `x.at[idx].add(upd)` are `stablehlo.scatter` with
  an `add` body, update_window_dims [1], inserted_window_dims [0], scatter_dims_to_operand_dims [0] and
  index_vector_dim 1 over the row numbers as `[E, 1]`. Update element `(e, c')` lands on operand element `(n, c)`
  exactly when `c' = c` and the `e`-th row number, read as a signed integer and NOT clamped, is `n`; an update whose
  row number is negative or at least `N` is dropped. So, over the extended reals, the result's element `(n, c)` is
  `x (n, c)` plus the sum of `upd (e, c)` over the edges `e` whose row number is `n`. Generic in the sizes `N`,
  `E`, `C` and the width of the index words.
-/
import Idealize.ShloMosaic.PureOps.Ideal
import Idealize.ShloMosaic.Lib.ValueIdx

noncomputable section

open scoped BigOperators

namespace Cert.RowScatterAdd

open Idealize.ShloMosaic Idealize.ShloMosaic.ValueIdx

/-- The dimension numbers of `jax.ops.segment_sum(upd, idx)` / `zeros.at[idx].add(upd)` for an operand `[N, C]`, the
    indices as `[E, 1]` and updates `[E, C]`: update_window_dims [1], inserted_window_dims [0],
    scatter_dims_to_operand_dims [0], index_vector_dim 1. -/
abbrev dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e` lands on row `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

section Coordinates
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update `(e, c')` starts at the `e`-th row number, read signed. -/
theorem start_row : (dims N E C wf).start (ix2 e c') idx 0 = (idx (ix2 e (0 : Fin 1))).toInt := by
  unfold ScatterDims.start
  rw [dif_pos (show (0 : Fin 2) ∈ (dims N E C wf).scatterDimsToOperandDims from List.mem_singleton.mpr rfl)]
  have hsi : (dims N E C wf).siIdx (ix2 e c') ⟨List.idxOf (0 : Fin 2) (dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter indices do not name that axis. -/
theorem start_col : (dims N E C wf).start (ix2 e c') idx 1 = 0 := by
  unfold ScatterDims.start
  rw [dif_neg (show (1 : Fin 2) ∉ (dims N E C wf).scatterDimsToOperandDims from fun h =>
    Nat.one_ne_zero (congrArg Fin.val (List.mem_singleton.mp h)))]

/-- The operand's axes that take a window coordinate are the column axis alone. -/
theorem mem_sKept (a : Fin 2) : a ∈ (dims N E C wf).sKept ↔ a ≠ 0 := by
  simp [ScatterDims.sKept, Shape.kept, List.mem_filter, List.mem_finRange]

/-- On the row axis, an inserted one, the window coordinate is `0`. -/
theorem window_row : (dims N E C wf).window (ix2 e c') 0 = 0 := by
  unfold ScatterDims.window
  rw [dif_neg (fun h => ((mem_sKept wf 0).mp h) rfl)]

/-- On the column axis the window coordinate of update `(e, c')` is its column `c'`. -/
theorem window_col : (dims N E C wf).window (ix2 e c') 1 = c'.val := by
  unfold ScatterDims.window
  rw [dif_pos ((mem_sKept wf 1).mpr (fun h => Nat.one_ne_zero (congrArg Fin.val h)))]
  rfl

end Coordinates

/-- WHERE AN UPDATE LANDS: update element `(e, c')` lands on operand element `(n, c)` exactly when the columns agree
    and the `e`-th row number, read signed and not clamped, is `n`. -/
theorem resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (dims N E C wf).resultIdx? (ix2 e c') idx = some (ix2 n c) ↔ c' = c ∧ hits idx e n := by
  have hs0 := start_row wf idx e c'
  have hs1 := start_col wf idx e c'
  have hw0 := window_row wf e c'
  have hw1 := window_col wf e c'
  have hn : n.val < N := n.isLt
  have hc' : c'.val < C := c'.isLt
  unfold hits
  unfold ScatterDims.resultIdx?
  split
  · rename_i h
    rw [Option.some.injEq]
    constructor
    · intro hf
      have h0 := congrArg Fin.val (congrFun hf 0)
      have h1 := congrArg Fin.val (congrFun hf 1)
      have hb0 := (h 0).1
      simp only [hs0, hw0] at h0 hb0
      simp only [hs1, hw1] at h1
      refine ⟨Fin.ext ?_, ?_⟩
      · change (((0 : Int) + (c'.val : Int)).toNat) = c.val at h1
        omega
      · change (((idx (ix2 e (0 : Fin 1))).toInt + ((0 : Nat) : Int)).toNat) = n.val at h0
        omega
    · rintro ⟨rfl, hhit⟩
      funext a
      refine Fin.ext ?_
      match a with
      | ⟨0, _⟩ =>
        show ((dims N E C wf).start (ix2 e c') idx 0 + ((dims N E C wf).window (ix2 e c') 0 : Nat)).toNat = n.val
        rw [hs0, hw0, hhit]; omega
      | ⟨1, _⟩ =>
        show ((dims N E C wf).start (ix2 e c') idx 1 + ((dims N E C wf).window (ix2 e c') 1 : Nat)).toNat = c'.val
        rw [hs1, hw1]; omega
  · rename_i h
    constructor
    · intro hf; exact absurd hf (by simp)
    · rintro ⟨rfl, hhit⟩
      exfalso; apply h
      intro a
      match a with
      | ⟨0, _⟩ =>
        show 0 ≤ (dims N E C wf).start (ix2 e c') idx 0 + ((dims N E C wf).window (ix2 e c') 0 : Nat) ∧
          (dims N E C wf).start (ix2 e c') idx 0 + ((dims N E C wf).window (ix2 e c') 0 : Nat) < (N : Int)
        rw [hs0, hw0, hhit]; omega
      | ⟨1, _⟩ =>
        show 0 ≤ (dims N E C wf).start (ix2 e c') idx 1 + ((dims N E C wf).window (ix2 e c') 1 : Nat) ∧
          (dims N E C wf).start (ix2 e c') idx 1 + ((dims N E C wf).window (ix2 e c') 1 : Nat) < (C : Int)
        rw [hs1, hw1]; omega

/-- THE ROW SCATTER-ADD READ AT `(n, c)`: the operand's element plus the sum, over the edges `e` whose row number
    (read signed, not clamped) is `n`, of the update's element `(e, c)`. -/
theorem scatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (dims N E C wf) x idx upd (ix2 n c)
      = x (ix2 n c) + ∑ e : Fin E, if hits idx e n then upd (ix2 e c) else 0 := by
  unfold Ideal.hostScatterAdd
  congr 1
  rw [Finset.sum_filter, sum_idx2]
  refine Finset.sum_congr rfl fun e _ => ?_
  have hcongr : ∀ c' : Fin C,
      (if (dims N E C wf).resultIdx? (ix2 e c') idx = some (ix2 n c) then upd (ix2 e c') else 0)
        = if c' = c then (if hits idx e n then upd (ix2 e c') else 0) else 0 := by
    intro c'
    by_cases h1 : c' = c
    · by_cases h2 : hits idx e n
      · rw [if_pos ((resultIdx?_eq_some_iff wf idx e c' n c).mpr ⟨h1, h2⟩), if_pos h1, if_pos h2]
      · rw [if_neg (fun h => h2 ((resultIdx?_eq_some_iff wf idx e c' n c).mp h).2), if_pos h1, if_neg h2]
    · rw [if_neg (fun h => h1 ((resultIdx?_eq_some_iff wf idx e c' n c).mp h).1), if_neg h1]
  rw [Finset.sum_congr rfl (fun c' _ => hcongr c')]
  rw [Finset.sum_ite_eq' Finset.univ c]
  simp only [Finset.mem_univ, if_true]

/-- The same read of the host's accumulating scatter as a program states it (`Host.scatterAdd`) at the ideal instance,
    where it is that exact sum whatever the float format. -/
theorem host_scatterAdd_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w)
    (upd : FVec Ideal ⟨2, ![E, C]⟩ φ) (n : Fin N) (c : Fin C) :
    Host.scatterAdd (F := Ideal) (dims N E C wf) x idx upd (ix2 n c)
      = x (ix2 n c) + ∑ e : Fin E, if hits idx e n then upd (ix2 e c) else 0 :=
  scatterAdd_apply wf x idx upd n c

end Cert.RowScatterAdd

end
-- ==== Proof.LibRowGather.lean ====
/-
  THE ROW GATHER READ AT AN INDEX. For a table `T : [N, C]` and an integer array of `E` row numbers, the array
  `T[idx] : [E, C]` is `stablehlo.gather` with offset_dims [1], collapsed_slice_dims [0], start_index_map [0],
  index_vector_dim 1 and slice_sizes [1, C] over the row numbers as `[E, 1]`. Its element `(e, c)` is the table's
  element `(row e, c)`, where `row e` is the `e`-th row number read as a signed integer and clamped into
  `[0, N − 1]` (a gather clamps every start index so that its slice fits). Generic in the sizes `N`, `E`, `C`, the
  width of the index words and the element type.
-/
import Idealize.ShloMosaic.PureOps.Ideal
import Idealize.ShloMosaic.Lib.ValueIdx

noncomputable section

open scoped BigOperators

namespace Cert.RowGather

open Idealize.ShloMosaic Idealize.ShloMosaic.ValueIdx

/-- The dimension numbers of `T[idx]` for `T : [N, C]` and the indices as `[E, 1]`: offset_dims [1],
    collapsed_slice_dims [0], start_index_map [0], index_vector_dim 1, slice_sizes [1, C]. -/
abbrev dims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index read signed and clamped into `[0, N − 1]`. -/
def row {N E w : Nat} (hN : 0 < N) (idx : IVec ⟨2, ![E, 1]⟩ w) (e : Fin E) : Fin N :=
  ⟨min (idx (ix2 e (0 : Fin 1))).toInt.toNat (N - 1), by omega⟩

/-- The row's number is the start index read signed, cut off at `N − 1`. -/
theorem row_val {N E w : Nat} (hN : 0 < N) (idx : IVec ⟨2, ![E, 1]⟩ w) (e : Fin E) :
    (row hN idx e).val = min (idx (ix2 e (0 : Fin 1))).toInt.toNat (N - 1) := rfl

/-- THE ROW GATHER READ AT `(e, c)`: `T[idx][e, c] = T[row e, c]`, the row the `e`-th start index names once read
    signed and clamped into `[0, N − 1]`, at the same column. -/
theorem gather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (dims N E C wf) x idx (ix2 e c) = x (ix2 (row hN idx e) c) := by
  unfold Host.gather
  congr 1
  funext a
  refine Fin.ext ?_
  match a with
  | ⟨0, _⟩ =>
    show (dims N E C wf).start (ix2 e c) idx 0 + (dims N E C wf).batchCoord (ix2 e c) 0
      + (dims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N E C wf).startIndexMap from List.mem_singleton.mpr rfl)]
    have hsi : (dims N E C wf).siIdx (ix2 e c) ⟨List.idxOf (0 : Fin 2) (dims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (dims N E C wf).start (ix2 e c) idx 1 + (dims N E C wf).batchCoord (ix2 e c) 1
      + (dims N E C wf).offCoord (ix2 e c) 1 = c.val
    rw [GatherDims.batchCoord_eq_zero _ _ _ List.not_mem_nil]
    have hstart : (dims N E C wf).start (ix2 e c) idx 1 = 0 := by
      unfold GatherDims.start
      rw [dif_neg (show (1 : Fin 2) ∉ (dims N E C wf).startIndexMap from by
        intro h; exact Nat.one_ne_zero (congrArg Fin.val (List.mem_singleton.mp h)))]
    rw [hstart]
    simp only [Nat.add_zero, Nat.zero_add]
    have hk : (1 : Fin 2) ∈ (dims N E C wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.RowGather

end
-- ==== Proof.Spec.lean ====
/-
  The graph-normalisation tail, index by index, over the extended reals.

  A node `n` is COUNTED in graph `g` when its graph number, read signed, is `g` (`hits si n g`: a segment sum
  drops every other node), and it READS the statistics of the graph `row gi n`: its graph number with negatives
  wrapped and the result clamped into the table (a gather never leaves the table). The two index arrays are kept
  apart here; the only thing the algebra asks of them is that a node counted in `g` reads `g`.

  For a feature `d`: `cnt g` is the number of nodes counted in `g`, at least one; `mean g d` the sum of `x n d` over
  them divided by `cnt g`; `ctr n d = x n d − ms d · mean (row n) d`. The reference takes the variance of a graph as
  the mean of the squared `ctr` over its nodes (`varCentered`); the kernel takes it from the moments,
  `max (E[x²] − mean² · (2·ms − ms²)) 0` (`varMoments`). Both then return
  `max (w d · ctr n d · rsqrt (var (row n) d + ε) + b d) 0`.
-/
import Idealize.ShloMosaic.PureOps.Ideal
import Idealize.ShloMosaic.PureOps.Ideal.Laws
import Idealize.ShloMosaic.Lib.ValueIdx
import proofs.«116646_j72258529788100_2_alg».proof.Proof.LibRowScatterAdd
import proofs.«116646_j72258529788100_2_alg».proof.Proof.LibRowGather

noncomputable section

open scoped BigOperators

namespace Cert.GcnNorm

open Idealize.ShloMosaic Idealize.ShloMosaic.ValueIdx
open Cert.RowScatterAdd (hits)
open Cert.RowGather (row)

/-- The float words the two programs share, read at the exact instance. -/
abbrev zeroW : EReal := Ideal.ofBits .f32 0x00000000#32
abbrev oneW : EReal := Ideal.ofBits .f32 0x3F800000#32
abbrev twoW : EReal := Ideal.ofBits .f32 0x40000000#32
abbrev epsW : EReal := Ideal.ofBits .f32 0x3727C5AC#32

/-- Every entry of an array is a real number. -/
def AllReal {S : Shape} (v : S.Idx → EReal) : Prop := ∀ i, ∃ r : ℝ, v i = (r : EReal)

/-- The table of 128 graphs is not empty. -/
theorem graphs_pos : 0 < 128 := by decide

section Tail

variable (si gi : IVec ⟨2, ![50000, 1]⟩ 32)
variable (x : (⟨2, ![50000, 128]⟩ : Shape).Idx → EReal)
variable (ms w b : (⟨1, ![128]⟩ : Shape).Idx → EReal)

/-- The segment sum of `f` over the nodes counted in graph `g`, from the zero word. -/
def segSum (f : Fin 50000 → EReal) (g : Fin 128) : EReal :=
  zeroW + ∑ n : Fin 50000, if hits si n g then f n else 0

/-- The number of nodes counted in graph `g`, at least one. -/
def cnt (g : Fin 128) : EReal := max (segSum si (fun _ => oneW) g) oneW

/-- The mean of feature `d` over graph `g`. -/
def mean (g : Fin 128) (d : Fin 128) : EReal := Ideal.div (segSum si (fun n => x (ix2 n d)) g) (cnt si g)

/-- Node `n`'s feature `d` with the scaled mean of the graph it reads taken off. -/
def ctr (n : Fin 50000) (d : Fin 128) : EReal :=
  x (ix2 n d) - ms (ix1 d) * mean si x (row graphs_pos gi n) d

/-- The variance as the mean of the squared centred entries over the graph's nodes. -/
def varCentered (g : Fin 128) (d : Fin 128) : EReal :=
  Ideal.div (segSum si (fun n => ctr si gi x ms n d * ctr si gi x ms n d) g) (cnt si g)

/-- The variance from the moments, cut off at zero. -/
def varMoments (g : Fin 128) (d : Fin 128) : EReal :=
  max (Ideal.div (segSum si (fun n => x (ix2 n d) * x (ix2 n d)) g) (cnt si g)
        - (mean si x g d * mean si x g d) * (twoW * ms (ix1 d) - ms (ix1 d) * ms (ix1 d))) zeroW

/-- The normalised, scaled, shifted and rectified entry, given the variance table `var`. -/
def outWith (var : Fin 128 → Fin 128 → EReal) (n : Fin 50000) (d : Fin 128) : EReal :=
  max (w (ix1 d) * ctr si gi x ms n d * Ideal.rsqrt (var (row graphs_pos gi n) d + epsW) + b (ix1 d)) zeroW

/-- The reference's entry. -/
def outCentered (n : Fin 50000) (d : Fin 128) : EReal := outWith si gi x ms w b (varCentered si gi x ms) n d

/-- The kernel's entry. -/
def outMoments (n : Fin 50000) (d : Fin 128) : EReal := outWith si gi x ms w b (varMoments si x ms) n d

end Tail

end Cert.GcnNorm

end
-- ==== Proof.Chain.lean ====
/-
  The host operations both programs share, as functions of what they read.

  `aggChain h nrm s d b5` is the message-passing step: gather the rows of `h` at the source numbers `s` (negatives
  wrapped by the row count, the gather clamps the rest), scale row `e` by `nrm e`, add the scaled rows into the rows
  the target numbers `d` name (a row number outside the table is dropped), and add the bias `b5` to every row.
  `scatIdx batch` and `gathIdx batch` are the two index arrays of the normalisation: the graph numbers as a column,
  as a segment sum takes them, and the same with negatives wrapped by 128, as the two gathers of the statistics take
  them. A node counted in graph `g` reads graph `g` (`reads_own_graph`).
-/
import proofs.«116646_j72258529788100_2_alg».proof.Proof.Gen.ReferenceIdeal
import proofs.«116646_j72258529788100_2_alg».proof.Proof.Spec

noncomputable section

namespace Cert.GcnNorm

open Idealize.ShloMosaic Idealize.ShloMosaic.ValueIdx Cert.ReferenceIdeal
open Cert.ReferenceIdeal.Facts₀ Cert.ReferenceIdeal.Facts

variable {F : FTy → Type} [FloatOps F]

/-- Gather, scale, scatter-add, add the bias: the sixteen operations from `h` to the convolution's output. -/
def aggChain (h : (⟨S50000x128, .f32⟩ : BufTy).Contents (Elt F)) (nrm : (⟨S675000, .f32⟩ : BufTy).Contents (Elt F))
    (s d : (⟨S675000, .i32⟩ : BufTy).Contents (Elt F)) (b5 : (⟨S128, .f32⟩ : BufTy).Contents (Elt F)) :
    (⟨S50000x128, .f32⟩ : BufTy).Contents (Elt F) :=
  addf
    (Host.scatterAdd scatter_S50000x128_S675000x1_S675000x128_1_0_0_1
      (broadcastInDim S50000x128 ![] bcast_S_S50000x128 (constant S_ .f32 0x00000000#32))
      (broadcastInDim S675000x1 ![0] bcast_S675000_S675000x1_0 d)
      (mulf
        (broadcastInDim S675000x128 ![0, 1] bcast_S675000x1_S675000x128_0_1
          (broadcastInDim S675000x1 ![0] bcast_S675000_S675000x1_0 nrm))
        (Host.gather gather_S50000x128_S675000x1_S675000x128_1_0_n_n_0_1_1128 h
          (broadcastInDim S675000x1 ![0] bcast_S675000_S675000x1_0
            (select (cmpi .slt s (broadcastInDim S675000 ![] bcast_S_S675000 (constantI S_ 32 0#32)))
              (addi s (broadcastInDim S675000 ![] bcast_S_S675000 (constantI S_ 32 50000#32))) s)))))
    (broadcastInDim S50000x128 ![0, 1] bcast_S1x128_S50000x128_0_1 (broadcastInDim S1x128 ![1] bcast_S128_S1x128_1 b5))

/-- The graph numbers as a column: the index operand of the three segment sums. -/
def scatIdx (batch : IVec S50000 32) : IVec S50000x1 32 :=
  broadcastInDim S50000x1 ![0] bcast_S50000_S50000x1_0 batch

/-- The graph numbers with negatives wrapped by 128, as a column: the index operand of the gathers of the statistics. -/
def gathIdx (batch : IVec S50000 32) : IVec S50000x1 32 :=
  broadcastInDim S50000x1 ![0] bcast_S50000_S50000x1_0
    (select (cmpi .slt batch (broadcastInDim S50000 ![] bcast_S_S50000 (constantI S_ 32 0#32)))
      (addi batch (broadcastInDim S50000 ![] bcast_S_S50000 (constantI S_ 32 128#32))) batch)

end Cert.GcnNorm

end
-- ==== Proof.KHostSplit.lean ====
/-
  The host operations between the two regions, cut in two at the convolution's output: the first nineteen gather
  the rows of `h`, scale them, add them into their target rows and add the bias (`opsConv`); the other fifty-seven
  compute each graph's count, mean and moments from that output, gather them per node, and lay the three parameter
  vectors out as rows (`opsStats`). Run one after the other they are the whole stretch.
-/
import proofs.«116646_j72258529788100_2_alg».proof.Proof.Gen.KernelIdeal.Launch

noncomputable section

namespace Cert.GcnNorm.K

open Idealize.ShloMosaic Idealize.ShloMosaic.TcCoe Idealize.SL.Sem Cert.KernelIdeal Cert.KernelIdeal.Gen

variable {F : FTy → Type} [FloatOps F]

set_option maxHeartbeats 40000000 in
/-- From `h` to the convolution's output: 19 operations. -/
abbrev opsConv : List (HloOp τ sig (Elt F)) :=
  ( StableHlo.unary main_v31 main_v34 (broadcastInDim S675000x1 ![0] bcast_S675000_S675000x1_0 : (⟨S675000, .f32⟩ : BufTy).Contents (Elt F) → (⟨S675000x1, .f32⟩ : BufTy).Contents (Elt F))
  :: StableHlo.nullary main_c_6 (constantI S_ 32 0#32)
  :: StableHlo.unary main_c_6 main_v35 (broadcastInDim S675000 ![] bcast_S_S675000 : (⟨S_, .i32⟩ : BufTy).Contents (Elt F) → (⟨S675000, .i32⟩ : BufTy).Contents (Elt F))
  :: StableHlo.binary main_v5 main_v35 main_v36 (cmpi .slt : (⟨S675000, .i32⟩ : BufTy).Contents (Elt F) → (⟨S675000, .i32⟩ : BufTy).Contents (Elt F) → (⟨S675000, .i1⟩ : BufTy).Contents (Elt F))
  :: StableHlo.nullary main_c_7 (constantI S_ 32 50000#32)
  :: StableHlo.unary main_c_7 main_v37 (broadcastInDim S675000 ![] bcast_S_S675000 : (⟨S_, .i32⟩ : BufTy).Contents (Elt F) → (⟨S675000, .i32⟩ : BufTy).Contents (Elt F))
  :: StableHlo.binary main_v5 main_v37 main_v38 (addi : (⟨S675000, .i32⟩ : BufTy).Contents (Elt F) → (⟨S675000, .i32⟩ : BufTy).Contents (Elt F) → (⟨S675000, .i32⟩ : BufTy).Contents (Elt F))
  :: StableHlo.ternary main_v36 main_v38 main_v5 main_v39 (select : (⟨S675000, .i1⟩ : BufTy).Contents (Elt F) → (⟨S675000, .i32⟩ : BufTy).Contents (Elt F) → (⟨S675000, .i32⟩ : BufTy).Contents (Elt F) → (⟨S675000, .i32⟩ : BufTy).Contents (Elt F))
  :: StableHlo.unary main_v39 main_v40 (broadcastInDim S675000x1 ![0] bcast_S675000_S675000x1_0 : (⟨S675000, .i32⟩ : BufTy).Contents (Elt F) → (⟨S675000x1, .i32⟩ : BufTy).Contents (Elt F))
  :: StableHlo.binary main_v33 main_v40 main_v41 ((fun x i => Host.gather gather_S50000x128_S675000x1_S675000x128_1_0_n_n_0_1_1128 x i) : (⟨S50000x128, .f32⟩ : BufTy).Contents (Elt F) → (⟨S675000x1, .i32⟩ : BufTy).Contents (Elt F) → (⟨S675000x128, .f32⟩ : BufTy).Contents (Elt F))
  :: StableHlo.unary main_v34 main_v42 (broadcastInDim S675000x128 ![0, 1] bcast_S675000x1_S675000x128_0_1 : (⟨S675000x1, .f32⟩ : BufTy).Contents (Elt F) → (⟨S675000x128, .f32⟩ : BufTy).Contents (Elt F))
  :: StableHlo.binary main_v42 main_v41 main_v43 (mulf : (⟨S675000x128, .f32⟩ : BufTy).Contents (Elt F) → (⟨S675000x128, .f32⟩ : BufTy).Contents (Elt F) → (⟨S675000x128, .f32⟩ : BufTy).Contents (Elt F))
  :: StableHlo.nullary main_cst_8 (constant S_ .f32 0x00000000#32)
  :: StableHlo.unary main_cst_8 main_v44 (broadcastInDim S50000x128 ![] bcast_S_S50000x128 : (⟨S_, .f32⟩ : BufTy).Contents (Elt F) → (⟨S50000x128, .f32⟩ : BufTy).Contents (Elt F))
  :: StableHlo.unary main_v6 main_v45 (broadcastInDim S675000x1 ![0] bcast_S675000_S675000x1_0 : (⟨S675000, .i32⟩ : BufTy).Contents (Elt F) → (⟨S675000x1, .i32⟩ : BufTy).Contents (Elt F))
  :: StableHlo.ternary main_v44 main_v45 main_v43 main_v46 ((fun x i u => Host.scatterAdd scatter_S50000x128_S675000x1_S675000x128_1_0_0_1 x i u) : (⟨S50000x128, .f32⟩ : BufTy).Contents (Elt F) → (⟨S675000x1, .i32⟩ : BufTy).Contents (Elt F) → (⟨S675000x128, .f32⟩ : BufTy).Contents (Elt F) → (⟨S50000x128, .f32⟩ : BufTy).Contents (Elt F))
  :: StableHlo.unary main_arg5 main_v47 (broadcastInDim S1x128 ![1] bcast_S128_S1x128_1 : (⟨S128, .f32⟩ : BufTy).Contents (Elt F) → (⟨S1x128, .f32⟩ : BufTy).Contents (Elt F))
  :: StableHlo.unary main_v47 main_v48 (broadcastInDim S50000x128 ![0, 1] bcast_S1x128_S50000x128_0_1 : (⟨S1x128, .f32⟩ : BufTy).Contents (Elt F) → (⟨S50000x128, .f32⟩ : BufTy).Contents (Elt F))
  :: StableHlo.binary main_v46 main_v48 main_v49 (addf : (⟨S50000x128, .f32⟩ : BufTy).Contents (Elt F) → (⟨S50000x128, .f32⟩ : BufTy).Contents (Elt F) → (⟨S50000x128, .f32⟩ : BufTy).Contents (Elt F))
  :: [] )

set_option maxHeartbeats 40000000 in
/-- From the convolution's output to the second region's operands: 57 operations. -/
abbrev opsStats : List (HloOp τ sig (Elt F)) :=
  ( StableHlo.nullary main_cst_9 (constant S_ .f32 0x3F800000#32)
  :: StableHlo.unary main_cst_9 main_v50 (broadcastInDim S50000 ![] bcast_S_S50000 : (⟨S_, .f32⟩ : BufTy).Contents (Elt F) → (⟨S50000, .f32⟩ : BufTy).Contents (Elt F))
  :: StableHlo.nullary main_cst_10 (constant S_ .f32 0x00000000#32)
  :: StableHlo.unary main_cst_10 main_v51 (broadcastInDim S128 ![] bcast_S_S128 : (⟨S_, .f32⟩ : BufTy).Contents (Elt F) → (⟨S128, .f32⟩ : BufTy).Contents (Elt F))
  :: StableHlo.unary main_arg3 main_v52 (broadcastInDim S50000x1 ![0] bcast_S50000_S50000x1_0 : (⟨S50000, .i32⟩ : BufTy).Contents (Elt F) → (⟨S50000x1, .i32⟩ : BufTy).Contents (Elt F))
  :: StableHlo.ternary main_v51 main_v52 main_v50 main_v53 ((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F))
  :: StableHlo.nullary main_cst_11 (constant S_ .f32 0x3F800000#32)
  :: StableHlo.unary main_cst_11 main_v54 (broadcastInDim S128 ![] bcast_S_S128 : (⟨S_, .f32⟩ : BufTy).Contents (Elt F) → (⟨S128, .f32⟩ : BufTy).Contents (Elt F))
  :: StableHlo.binary main_v53 main_v54 main_v55 (maximumf : (⟨S128, .f32⟩ : BufTy).Contents (Elt F) → (⟨S128, .f32⟩ : BufTy).Contents (Elt F) → (⟨S128, .f32⟩ : BufTy).Contents (Elt F))
  :: StableHlo.unary main_v55 main_v56 (broadcastInDim S128x1 ![0] bcast_S128_S128x1_0 : (⟨S128, .f32⟩ : BufTy).Contents (Elt F) → (⟨S128x1, .f32⟩ : BufTy).Contents (Elt F))
  :: StableHlo.nullary main_cst_12 (constant S_ .f32 0x00000000#32)
  :: StableHlo.unary main_cst_12 main_v57 (broadcastInDim S128x128 ![] bcast_S_S128x128 : (⟨S_, .f32⟩ : BufTy).Contents (Elt F) → (⟨S128x128, .f32⟩ : BufTy).Contents (Elt F))
  :: StableHlo.unary main_arg3 main_v58 (broadcastInDim S50000x1 ![0] bcast_S50000_S50000x1_0 : (⟨S50000, .i32⟩ : BufTy).Contents (Elt F) → (⟨S50000x1, .i32⟩ : BufTy).Contents (Elt F))
  :: StableHlo.ternary main_v57 main_v58 main_v49 main_v59 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F))
  :: StableHlo.unary main_v56 main_v60 (broadcastInDim S128x128 ![0, 1] bcast_S128x1_S128x128_0_1 : (⟨S128x1, .f32⟩ : BufTy).Contents (Elt F) → (⟨S128x128, .f32⟩ : BufTy).Contents (Elt F))
  :: StableHlo.binary main_v59 main_v60 main_v61 (Host.divf : (⟨S128x128, .f32⟩ : BufTy).Contents (Elt F) → (⟨S128x128, .f32⟩ : BufTy).Contents (Elt F) → (⟨S128x128, .f32⟩ : BufTy).Contents (Elt F))
  :: StableHlo.binary main_v49 main_v49 main_v62 (mulf : (⟨S50000x128, .f32⟩ : BufTy).Contents (Elt F) → (⟨S50000x128, .f32⟩ : BufTy).Contents (Elt F) → (⟨S50000x128, .f32⟩ : BufTy).Contents (Elt F))
  :: StableHlo.nullary main_cst_13 (constant S_ .f32 0x00000000#32)
  :: StableHlo.unary main_cst_13 main_v63 (broadcastInDim S128x128 ![] bcast_S_S128x128 : (⟨S_, .f32⟩ : BufTy).Contents (Elt F) → (⟨S128x128, .f32⟩ : BufTy).Contents (Elt F))
  :: StableHlo.unary main_arg3 main_v64 (broadcastInDim S50000x1 ![0] bcast_S50000_S50000x1_0 : (⟨S50000, .i32⟩ : BufTy).Contents (Elt F) → (⟨S50000x1, .i32⟩ : BufTy).Contents (Elt F))
  :: StableHlo.ternary main_v63 main_v64 main_v62 main_v65 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F))
  :: StableHlo.unary main_v56 main_v66 (broadcastInDim S128x128 ![0, 1] bcast_S128x1_S128x128_0_1 : (⟨S128x1, .f32⟩ : BufTy).Contents (Elt F) → (⟨S128x128, .f32⟩ : BufTy).Contents (Elt F))
  :: StableHlo.binary main_v65 main_v66 main_v67 (Host.divf : (⟨S128x128, .f32⟩ : BufTy).Contents (Elt F) → (⟨S128x128, .f32⟩ : BufTy).Contents (Elt F) → (⟨S128x128, .f32⟩ : BufTy).Contents (Elt F))
  :: StableHlo.unary main_arg8 main_v68 (broadcastInDim S1x128 ![1] bcast_S128_S1x128_1 : (⟨S128, .f32⟩ : BufTy).Contents (Elt F) → (⟨S1x128, .f32⟩ : BufTy).Contents (Elt F))
  :: StableHlo.binary main_v61 main_v61 main_v69 (mulf : (⟨S128x128, .f32⟩ : BufTy).Contents (Elt F) → (⟨S128x128, .f32⟩ : BufTy).Contents (Elt F) → (⟨S128x128, .f32⟩ : BufTy).Contents (Elt F))
  :: StableHlo.nullary main_cst_14 (constant S_ .f32 0x40000000#32)
  :: StableHlo.unary main_cst_14 main_v70 (broadcastInDim S1x128 ![] bcast_S_S1x128 : (⟨S_, .f32⟩ : BufTy).Contents (Elt F) → (⟨S1x128, .f32⟩ : BufTy).Contents (Elt F))
  :: StableHlo.binary main_v70 main_v68 main_v71 (mulf : (⟨S1x128, .f32⟩ : BufTy).Contents (Elt F) → (⟨S1x128, .f32⟩ : BufTy).Contents (Elt F) → (⟨S1x128, .f32⟩ : BufTy).Contents (Elt F))
  :: StableHlo.binary main_v68 main_v68 main_v72 (mulf : (⟨S1x128, .f32⟩ : BufTy).Contents (Elt F) → (⟨S1x128, .f32⟩ : BufTy).Contents (Elt F) → (⟨S1x128, .f32⟩ : BufTy).Contents (Elt F))
  :: StableHlo.binary main_v71 main_v72 main_v73 (subf : (⟨S1x128, .f32⟩ : BufTy).Contents (Elt F) → (⟨S1x128, .f32⟩ : BufTy).Contents (Elt F) → (⟨S1x128, .f32⟩ : BufTy).Contents (Elt F))
  :: StableHlo.unary main_v73 main_v74 (broadcastInDim S128x128 ![0, 1] bcast_S1x128_S128x128_0_1 : (⟨S1x128, .f32⟩ : BufTy).Contents (Elt F) → (⟨S128x128, .f32⟩ : BufTy).Contents (Elt F))
  :: StableHlo.binary main_v69 main_v74 main_v75 (mulf : (⟨S128x128, .f32⟩ : BufTy).Contents (Elt F) → (⟨S128x128, .f32⟩ : BufTy).Contents (Elt F) → (⟨S128x128, .f32⟩ : BufTy).Contents (Elt F))
  :: StableHlo.binary main_v67 main_v75 main_v76 (subf : (⟨S128x128, .f32⟩ : BufTy).Contents (Elt F) → (⟨S128x128, .f32⟩ : BufTy).Contents (Elt F) → (⟨S128x128, .f32⟩ : BufTy).Contents (Elt F))
  :: StableHlo.nullary main_cst_15 (constant S_ .f32 0x00000000#32)
  :: StableHlo.unary main_cst_15 main_v77 (broadcastInDim S128x128 ![] bcast_S_S128x128 : (⟨S_, .f32⟩ : BufTy).Contents (Elt F) → (⟨S128x128, .f32⟩ : BufTy).Contents (Elt F))
  :: StableHlo.binary main_v76 main_v77 main_v78 (maximumf : (⟨S128x128, .f32⟩ : BufTy).Contents (Elt F) → (⟨S128x128, .f32⟩ : BufTy).Contents (Elt F) → (⟨S128x128, .f32⟩ : BufTy).Contents (Elt F))
  :: StableHlo.nullary main_c_16 (constantI S_ 32 0#32)
  :: StableHlo.unary main_c_16 main_v79 (broadcastInDim S50000 ![] bcast_S_S50000 : (⟨S_, .i32⟩ : BufTy).Contents (Elt F) → (⟨S50000, .i32⟩ : BufTy).Contents (Elt F))
  :: StableHlo.binary main_arg3 main_v79 main_v80 (cmpi .slt : (⟨S50000, .i32⟩ : BufTy).Contents (Elt F) → (⟨S50000, .i32⟩ : BufTy).Contents (Elt F) → (⟨S50000, .i1⟩ : BufTy).Contents (Elt F))
  :: StableHlo.nullary main_c_17 (constantI S_ 32 128#32)
  :: StableHlo.unary main_c_17 main_v81 (broadcastInDim S50000 ![] bcast_S_S50000 : (⟨S_, .i32⟩ : BufTy).Contents (Elt F) → (⟨S50000, .i32⟩ : BufTy).Contents (Elt F))
  :: StableHlo.binary main_arg3 main_v81 main_v82 (addi : (⟨S50000, .i32⟩ : BufTy).Contents (Elt F) → (⟨S50000, .i32⟩ : BufTy).Contents (Elt F) → (⟨S50000, .i32⟩ : BufTy).Contents (Elt F))
  :: StableHlo.ternary main_v80 main_v82 main_arg3 main_v83 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v83 main_v84 (broadcastInDim S50000x1 ![0] bcast_S50000_S50000x1_0 : (⟨S50000, .i32⟩ : BufTy).Contents (Elt F) → (⟨S50000x1, .i32⟩ : BufTy).Contents (Elt F))
  :: StableHlo.binary main_v61 main_v84 main_v85 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F))
  :: StableHlo.nullary main_c_18 (constantI S_ 32 0#32)
  :: StableHlo.unary main_c_18 main_v86 (broadcastInDim S50000 ![] bcast_S_S50000 : (⟨S_, .i32⟩ : BufTy).Contents (Elt F) → (⟨S50000, .i32⟩ : BufTy).Contents (Elt F))
  :: StableHlo.binary main_arg3 main_v86 main_v87 (cmpi .slt : (⟨S50000, .i32⟩ : BufTy).Contents (Elt F) → (⟨S50000, .i32⟩ : BufTy).Contents (Elt F) → (⟨S50000, .i1⟩ : BufTy).Contents (Elt F))
  :: StableHlo.nullary main_c_19 (constantI S_ 32 128#32)
  :: StableHlo.unary main_c_19 main_v88 (broadcastInDim S50000 ![] bcast_S_S50000 : (⟨S_, .i32⟩ : BufTy).Contents (Elt F) → (⟨S50000, .i32⟩ : BufTy).Contents (Elt F))
  :: StableHlo.binary main_arg3 main_v88 main_v89 (addi : (⟨S50000, .i32⟩ : BufTy).Contents (Elt F) → (⟨S50000, .i32⟩ : BufTy).Contents (Elt F) → (⟨S50000, .i32⟩ : BufTy).Contents (Elt F))
  :: StableHlo.ternary main_v87 main_v89 main_arg3 main_v90 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
  :: StableHlo.unary main_v90 main_v91 (broadcastInDim S50000x1 ![0] bcast_S50000_S50000x1_0 : (⟨S50000, .i32⟩ : BufTy).Contents (Elt F) → (⟨S50000x1, .i32⟩ : BufTy).Contents (Elt F))
  :: StableHlo.binary main_v78 main_v91 main_v92 ((fun x i => Host.gather gather_S128x128_S50000x1_S50000x128_1_0_n_n_0_1_1128 x i) : (⟨S128x128, .f32⟩ : BufTy).Contents (Elt F) → (⟨S50000x1, .i32⟩ : BufTy).Contents (Elt F) → (⟨S50000x128, .f32⟩ : BufTy).Contents (Elt F))
  :: StableHlo.reshape main_arg6 main_v93 rfl shapeCasts_S128_S1x128
  :: StableHlo.reshape main_arg7 main_v94 rfl shapeCasts_S128_S1x128
  :: StableHlo.reshape main_arg8 main_v95 rfl shapeCasts_S128_S1x128
  :: [] )

set_option maxHeartbeats 40000000 in
set_option maxRecDepth 16384 in
/-- The stretch is the two parts in order. -/
theorem hostOps1_split : (hostOps1 : List (HloOp τ sig (Elt F))) = opsConv ++ opsStats := rfl

end Cert.GcnNorm.K

end
-- ==== Proof.KRun.lean ====
/-
  The kernel's run with its result named: every weakly fair execution of the idealized kernel's @main terminates,
  nothing faulting, with the result array at what the second region's write-backs leave (the last boundary's
  contents at that buffer) and every argument array as launched. The run is the segments' run — three host
  stretches, the matrix-product region, the stretch between, the normalisation region — and the final state is
  read against the last thread state, one buffer at a time.
-/
import proofs.«116646_j72258529788100_2_alg».proof.Proof.Gen.KernelIdeal.Frame

set_option maxRecDepth 16384

noncomputable section

namespace Cert.GcnNorm.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: it terminates without a fault, the result array ends at the last boundary's contents and the
    arguments end as launched. -/
theorem run_out : θ_run defs (onTc (τ := τ) (main (F := F))) ⟨m, fun _ => 0, ρ⟩ (fun r => ∀ c : Dev nD,
      r.2.mem ((c.tc : Thread nD τ).loc main_v96) = W6 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v96 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.GcnNorm.K

end
-- ==== Proof.OwnGraph.lean ====
/-
  A node counted in graph `g` reads graph `g`.

  The segment sums take the graph numbers as a column and read them signed; the gathers of the statistics take the
  same column with negative numbers wrapped by 128, and clamp the result into the table of 128 graphs. When node
  `n`'s graph number, read signed, is `g` with `g < 128`, it is not negative, so the wrap leaves it alone; its
  natural-number value is `g`, which the clamp at 127 leaves alone as well.
-/
import proofs.«116646_j72258529788100_2_alg».proof.Proof.Chain
import Idealize.ShloMosaic.Lib.ValueIdx
import Idealize.ShloMosaic.Lib.Pipeline.Value

namespace Cert.GcnNorm

open Idealize.ShloMosaic Idealize.ShloMosaic.ValueIdx Cert.ReferenceIdeal
open Cert.ReferenceIdeal.Facts₀ Cert.ReferenceIdeal.Facts

/-- A vector of 50000 entries broadcast to a column, read at `(n, 0)`, is the vector at `n`. -/
theorem col_apply (v : IVec S50000 32) (n : Fin 50000) :
    broadcastInDim S50000x1 ![0] bcast_S50000_S50000x1_0 v (ix2 n (0 : Fin 1)) = v (ix1 n) := by
  refine broadcastInDim_apply _ _ v _ (ix1 n) (fun a => ?_)
  match a with
  | ⟨0, _⟩ => rfl

/-- A node counted in graph `g` reads graph `g`. -/
theorem reads_own_graph (batch : IVec Cert.ReferenceIdeal.S50000 32) (n : Fin 50000) (g : Fin 128)
    (h : Cert.RowScatterAdd.hits (scatIdx batch) n g) : Cert.RowGather.row graphs_pos (gathIdx batch) n = g := by
  unfold Cert.RowScatterAdd.hits scatIdx at h
  rw [col_apply] at h
  apply Fin.ext
  rw [Cert.RowGather.row_val]
  unfold gathIdx
  rw [col_apply]
  have hlt : g.val < 128 := g.isLt
  -- the graph number is not negative, so it is not below zero in the signed order
  have hb : (batch (ix1 n)).slt 0#32 = false := by
    rw [BitVec.slt, h]
    simp
  -- hence the wrap by 128 returns the graph number itself
  have hsel : select (cmpi .slt batch (broadcastInDim S50000 ![] bcast_S_S50000 (constantI S_ 32 0#32)))
      (addi batch (broadcastInDim S50000 ![] bcast_S_S50000 (constantI S_ 32 128#32))) batch (ix1 n) = batch (ix1 n) := by
    show Scalar.select (IntOp.cmpi .slt (batch (ix1 n)) (0#32)) _ _ = _
    unfold Scalar.select IntOp.cmpi
    simp [hb]
  -- and `min g 127 = g`
  rw [hsel, h]
  simp
  omega

end Cert.GcnNorm
-- ==== Proof.PreReal.lean ====
/-
  Under the precondition every float input is real-valued.

  The precondition is the conjunction, over the seven float inputs, of "every entry `x` has `|x| < +∞`", each stated
  as a reduction by `and` of the comparisons over all axes. A reduction by `and` that came out 1 met a 1 at every
  index; at the exact instance `|x|` is `max x (−x)` over the extended reals and `+∞` is `⊤`, and an extended real
  with `max x (−x) < ⊤` is neither `⊤` nor `⊥`: it is a real number.
-/
import proofs.«116646_j72258529788100_2_alg».proof.Defs
import proofs.«116646_j72258529788100_2_alg».proof.Proof.Gen.Pre_finite_inputs
import proofs.«116646_j72258529788100_2_alg».proof.Proof.Spec
import Idealize.ShloMosaic.Lib.ReduceAll
import Idealize.ShloMosaic.Lib.ValueIdx

namespace Cert.GcnNorm

open Idealize.ShloMosaic Idealize.SL.Sem Idealize.ShloMosaic.ValueIdx

/-- The scalar shape has one index. -/
instance scalarIdx_subsingleton : Subsingleton (⟨0, ![]⟩ : Shape).Idx := ⟨fun a b => funext fun d => d.elim0⟩

/-- An extended real whose absolute value `max x (−x)` is below the word of `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- An array all of whose entries pass `|x| < +∞`, the passes reduced by `and` to a scalar 1, is real-valued. -/
theorem allReal_of_all {S : Shape} {axes : List (Fin S.rank)} (v : S.Idx → EReal)
    (hb : (⟨0, ![]⟩ : Shape).BroadcastsInDim S (![] : Fin 0 → Fin S.rank))
    (hr : S.ReducesTo axes ⟨0, ![]⟩) (hu : 0 < (⟨0, ![]⟩ : Shape).numel) (init : (⟨0, ![]⟩ : Shape).Idx → BitVec 1)
    (e : Host.reduce IntOp.andi
          (cmpf (F := Ideal) (φ := .f32) .olt (Host.absf (F := Ideal) (φ := .f32) v)
            (broadcastInDim S ![] hb (constant (F := Ideal) ⟨0, ![]⟩ .f32 0x7F800000#32)))
          init hr hu ix0 = 1#1) : AllReal v := by
  intro i
  exact real_of_abs_lt_inf (v i) (Host.reduce_andi_all _ init hr hu ix0 e i)

/-- Under the precondition the five float inputs the algebra reads — the node features, the edge weights, the weight
    matrix, the convolution's bias and the mean scale — are real-valued, on every device. -/
theorem inputs_real (m : (ℓ : Loc Cert.KernelIdeal.nD Cert.KernelIdeal.τ Cert.KernelIdeal.sig) → Buf (Elt Ideal) ℓ) (hpre : Cert.Pre_KernelIdeal m) (c : Dev Cert.KernelIdeal.nD) : AllReal (S := Cert.KernelIdeal.S50000x128) (m ((c.tc : Thread Cert.KernelIdeal.nD Cert.KernelIdeal.τ).loc Cert.KernelIdeal.main_arg0)) ∧ AllReal (S := Cert.KernelIdeal.S625000) (m ((c.tc : Thread _ Cert.KernelIdeal.τ).loc Cert.KernelIdeal.main_arg2)) ∧ AllReal (S := Cert.KernelIdeal.S128x128) (m ((c.tc : Thread _ Cert.KernelIdeal.τ).loc Cert.KernelIdeal.main_arg4)) ∧ AllReal (S := Cert.KernelIdeal.S128) (m ((c.tc : Thread _ Cert.KernelIdeal.τ).loc Cert.KernelIdeal.main_arg5)) ∧ AllReal (S := Cert.KernelIdeal.S128) (m ((c.tc : Thread _ Cert.KernelIdeal.τ).loc Cert.KernelIdeal.main_arg8)) := by
  have h := congrFun (hpre c) ix0
  dsimp only [Cert.Pre_finite_inputs.fn, Cert.Pre_finite_inputs.fn_part1] at h
  obtain ⟨h28, h32⟩ := IntOp.andi_eq_one.1 h
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨allReal_of_all _ _ _ _ _ h3, allReal_of_all _ _ _ _ _ h7, allReal_of_all _ _ _ _ _ h12,
    allReal_of_all _ _ _ _ _ h17, allReal_of_all _ _ _ _ _ h32⟩

end Cert.GcnNorm
-- ==== Proof.LibVecScatterAdd.lean ====
/-
  THE VECTOR SCATTER-ADD READ AT AN INDEX. For an operand `x : [N]`, an integer array of `E` element numbers and
  updates `upd : [E]`, the arrays `jax.ops.segment_sum(upd, idx)` and `x.at[idx].add(upd)` are `stablehlo.scatter`
  with an `add` body, no update window axis, inserted_window_dims [0], scatter_dims_to_operand_dims [0] and
  index_vector_dim 1 over the element numbers as `[E, 1]`. Update element `e` lands on operand element `n` exactly
  when the `e`-th number, read as a signed integer and NOT clamped, is `n`; an update whose number is negative or at
  least `N` is dropped. So, over the extended reals, the result's element `n` is `x n` plus the sum of `upd e` over
  the `e` whose number is `n`. Generic in the sizes `N`, `E` and the width of the index words.
-/
import Idealize.ShloMosaic.PureOps.Ideal
import Idealize.ShloMosaic.Lib.ValueIdx

noncomputable section

open scoped BigOperators

namespace Cert.VecScatterAdd

open Idealize.ShloMosaic Idealize.ShloMosaic.ValueIdx

/-- The dimension numbers of `jax.ops.segment_sum(upd, idx)` / `zeros.at[idx].add(upd)` for an operand `[N]`, the
    indices as `[E, 1]` and updates `[E]`: no update window axis, inserted_window_dims [0],
    scatter_dims_to_operand_dims [0], index_vector_dim 1. -/
abbrev dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Coordinates
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the `e`-th number, read signed. -/
theorem start_elt : (dims N E wf).start (ix1 e) idx 0 = (idx (ix2 e (0 : Fin 1))).toInt := by
  unfold ScatterDims.start
  rw [dif_pos (show (0 : Fin 1) ∈ (dims N E wf).scatterDimsToOperandDims from List.mem_singleton.mpr rfl)]
  have hsi : (dims N E wf).siIdx (ix1 e) ⟨List.idxOf (0 : Fin 1) (dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: it takes no window coordinate. -/
theorem not_mem_sKept (a : Fin 1) : a ∉ (dims N E wf).sKept := by
  simp [ScatterDims.sKept, Shape.kept, List.mem_filter, List.mem_finRange, Fin.fin_one_eq_zero a]

/-- On the operand's axis, an inserted one, the window coordinate is `0`. -/
theorem window_elt : (dims N E wf).window (ix1 e) 0 = 0 := by
  unfold ScatterDims.window
  rw [dif_neg (not_mem_sKept wf 0)]

end Coordinates

/-- WHERE AN UPDATE LANDS: update element `e` lands on operand element `n` exactly when the `e`-th number, read
    signed and not clamped, is `n`. -/
theorem resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (dims N E wf).resultIdx? (ix1 e) idx = some (ix1 n) ↔ hits idx e n := by
  have hs0 := start_elt wf idx e
  have hw0 := window_elt wf e
  have hn : n.val < N := n.isLt
  unfold hits
  unfold ScatterDims.resultIdx?
  split
  · rename_i h
    rw [Option.some.injEq]
    constructor
    · intro hf
      have h0 := congrArg Fin.val (congrFun hf 0)
      have hb0 := (h 0).1
      simp only [hs0, hw0] at h0 hb0
      change (((idx (ix2 e (0 : Fin 1))).toInt + ((0 : Nat) : Int)).toNat) = n.val at h0
      omega
    · intro hhit
      funext a
      refine Fin.ext ?_
      match a with
      | ⟨0, _⟩ =>
        show ((dims N E wf).start (ix1 e) idx 0 + ((dims N E wf).window (ix1 e) 0 : Nat)).toNat = n.val
        rw [hs0, hw0, hhit]; omega
  · rename_i h
    constructor
    · intro hf; exact absurd hf (by simp)
    · intro hhit
      exfalso; apply h
      intro a
      match a with
      | ⟨0, _⟩ =>
        show 0 ≤ (dims N E wf).start (ix1 e) idx 0 + ((dims N E wf).window (ix1 e) 0 : Nat) ∧
          (dims N E wf).start (ix1 e) idx 0 + ((dims N E wf).window (ix1 e) 0 : Nat) < (N : Int)
        rw [hs0, hw0, hhit]; omega

/-- THE VECTOR SCATTER-ADD READ AT `n`: the operand's element plus the sum, over the updates `e` whose number (read
    signed, not clamped) is `n`, of the update's element `e`. -/
theorem scatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (dims N E wf) x idx upd (ix1 n)
      = x (ix1 n) + ∑ e : Fin E, if hits idx e n then upd (ix1 e) else 0 := by
  unfold Ideal.hostScatterAdd
  congr 1
  rw [Finset.sum_filter, sum_idx1]
  refine Finset.sum_congr rfl fun e _ => ?_
  by_cases h2 : hits idx e n
  · rw [if_pos ((resultIdx?_eq_some_iff wf idx e n).mpr h2), if_pos h2]
  · rw [if_neg (fun h => h2 ((resultIdx?_eq_some_iff wf idx e n).mp h)), if_neg h2]

/-- The same read of the host's accumulating scatter as a program states it (`Host.scatterAdd`) at the ideal instance,
    where it is that exact sum whatever the float format. -/
theorem host_scatterAdd_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w)
    (upd : FVec Ideal ⟨1, ![E]⟩ φ) (n : Fin N) :
    Host.scatterAdd (F := Ideal) (dims N E wf) x idx upd (ix1 n)
      = x (ix1 n) + ∑ e : Fin E, if hits idx e n then upd (ix1 e) else 0 :=
  scatterAdd_apply wf x idx upd n

end Cert.VecScatterAdd

end
-- ==== Proof.LibVecGather.lean ====
/-
  THE VECTOR GATHER READ AT AN INDEX. For a flat table `T : [N]` and an integer array of `E` positions, the array
  `T[idx] : [E]` is `stablehlo.gather` with offset_dims [], collapsed_slice_dims [0], start_index_map [0],
  index_vector_dim 1 and slice_sizes [1] over the positions as `[E, 1]`. Its element `e` is the table's element
  `row e`, where `row e` is the `e`-th position read as a signed integer and clamped into `[0, N − 1]` (a gather
  clamps every start index so that its slice fits). The position `row e` is the one the row gather of a table
  `[N, C]` reads its row at, so a vector and a matrix gathered at the same positions read the same node. Generic in
  the sizes `N`, `E`, the width of the index words and the element type.
-/
import Idealize.ShloMosaic.PureOps.Ideal
import Idealize.ShloMosaic.Lib.ValueIdx
import proofs.«116646_j72258529788100_2_alg».proof.Proof.LibRowGather

noncomputable section

namespace Cert.VecGather

open Idealize.ShloMosaic Idealize.ShloMosaic.ValueIdx

/-- The dimension numbers of `T[idx]` for `T : [N]` and the positions as `[E, 1]`: offset_dims [],
    collapsed_slice_dims [0], start_index_map [0], index_vector_dim 1, slice_sizes [1]. -/
abbrev dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads its one start index at `(e, 0)` of the positions. -/
theorem siIdx_eq {N E : Nat} (wf : GatherDims.WF ⟨1, ![N]⟩ ⟨2, ![E, 1]⟩ ⟨1, ![E]⟩ [] [0] [] [0] [] 1 ![1]) (e : Fin E) :
    (dims N E wf).siIdx (ix1 e) ⟨List.idxOf (0 : Fin 1) (dims N E wf).startIndexMap,
        List.idxOf_lt_length_iff.2 (List.mem_singleton.mpr rfl)⟩ = ix2 e (0 : Fin 1) := by
  funext b; refine Fin.ext ?_
  match b with
  | ⟨0, _⟩ => rfl
  | ⟨1, _⟩ => rfl

/-- THE VECTOR GATHER READ AT `e`: `T[idx][e] = T[row e]`, the position the `e`-th start index names once read
    signed and clamped into `[0, N − 1]`. -/
theorem gather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (dims N E wf) x idx (ix1 e) = x (ix1 (Cert.RowGather.row hN idx e)) := by
  unfold Host.gather
  congr 1
  funext a
  obtain rfl : a = 0 := Subsingleton.elim _ _
  refine Fin.ext ?_
  show (dims N E wf).start (ix1 e) idx 0 + (dims N E wf).batchCoord (ix1 e) 0 + (dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims N E wf).startIndexMap from List.mem_singleton.mpr rfl)]
  rw [siIdx_eq wf e]
  rfl

end Cert.VecGather

end
-- ==== Proof.Reals.lean ====
/-
  Real-valuedness along the shared prefix.

  An array over the extended reals is real-valued (`AllReal`) when none of its entries is an infinity. Every
  operation of the prefix both programs share keeps this: a layout operation (broadcast, transpose, concatenate,
  gather) only copies entries; a product or a sum of two reals is real; a scatter-add adds finitely many reals to a
  real; the words `0` and `1` are reals; and the inverse square root is taken only where its argument is positive,
  the other entries being set to zero. Hence the edge weights (`norm_real`), the projected features (`h_real`) and
  the convolution's output (`aggChain_real`) are real-valued when the float inputs are.
-/
import proofs.«116646_j72258529788100_2_alg».proof.Proof.Gen.ReferenceIdeal.Read
import proofs.«116646_j72258529788100_2_alg».proof.Proof.Spec
import proofs.«116646_j72258529788100_2_alg».proof.Proof.Chain
import proofs.«116646_j72258529788100_2_alg».proof.Proof.LibRowScatterAdd
import proofs.«116646_j72258529788100_2_alg».proof.Proof.LibRowGather
import proofs.«116646_j72258529788100_2_alg».proof.Proof.LibVecScatterAdd
import proofs.«116646_j72258529788100_2_alg».proof.Proof.LibVecGather
import Idealize.ShloMosaic.Lib.ValueIdx
import Idealize.ShloMosaic.Lib.Pipeline.Value
import Idealize.ShloMosaic.PureOps.Ideal.Laws

noncomputable section

open scoped BigOperators

namespace Cert.GcnNorm

open Idealize.ShloMosaic Idealize.ShloMosaic.ValueIdx

namespace Reals

/-! ## Scalars -/

/-- A finite sum of reals is real. -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The zero word is the real `0`. -/
theorem zero_word_real : ∃ r : ℝ, Ideal.ofBits .f32 0x00000000#32 = (r : EReal) :=
  ⟨0, by rw [Ideal.ofBits_zero_f32]; rfl⟩

/-- The word `0x3F800000` (the float `1`) is a real. -/
theorem one_word_real : ∃ r : ℝ, Ideal.ofBits .f32 0x3F800000#32 = (r : EReal) := by
  refine ⟨1, ?_⟩
  simp [Ideal.ofBits, Ideal.ieee]
  rw [← EReal.coe_mul, ← EReal.coe_one]
  congr 1
  norm_num

/-- The inverse square root of a positive real is a real. -/
theorem rsqrt_real_of_pos (r : ℝ) (hr : 0 < r) : ∃ q : ℝ, Ideal.rsqrt (r : EReal) = (q : EReal) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-! ## Arrays -/

/-- A broadcast copies entries. -/
theorem bcast_real {s t : Shape} (dims : Fin s.rank → Fin t.rank) (h : s.BroadcastsInDim t dims)
    (x : s.Idx → EReal) (hx : AllReal x) : AllReal (broadcastInDim t dims h x) :=
  fun _ => hx _

/-- A transposition copies entries. -/
theorem transpose_real {s t : Shape} (perm : List (Fin s.rank)) (x : s.Idx → EReal) (h : s.Transposes perm t)
    (hx : AllReal x) : AllReal (transpose t perm x h) :=
  fun _ => hx _

/-- A gather copies entries of its table. -/
theorem gather_real {s si t : Shape} {w : Nat} (d : GatherDims s si t) (x : s.Idx → EReal) (idx : IVec si w)
    (hx : AllReal x) : AllReal (Host.gather d x idx) :=
  fun _ => hx _

/-- A concatenation copies entries of its pieces. -/
theorem concat_real {t : Shape} (a : Fin t.rank) (xs : List ((s : Shape) × (s.Idx → EReal)))
    (h : Shape.Concatenates (xs.map (·.1)) t a) (hxs : ∀ p ∈ xs, AllReal p.2) :
    AllReal (concatenate t a xs h) := by
  intro j
  exact hxs _ (List.getElem_mem _) _

/-- The array of zero words. -/
theorem const_zero_real (s : Shape) : AllReal (constant (F := Ideal) s .f32 0x00000000#32) :=
  fun _ => zero_word_real

/-- The array of one words. -/
theorem const_one_real (s : Shape) : AllReal (constant (F := Ideal) s .f32 0x3F800000#32) :=
  fun _ => one_word_real

/-- An entrywise product of real-valued arrays. -/
theorem mulf_real {s : Shape} (x y : FVec Ideal s .f32) (hx : AllReal x) (hy : AllReal y) :
    AllReal (mulf (F := Ideal) x y) := by
  intro i
  obtain ⟨a, ha⟩ := hx i
  obtain ⟨b, hb⟩ := hy i
  exact ⟨a * b, by show x i * y i = _; rw [ha, hb, EReal.coe_mul]⟩

/-- An entrywise sum of real-valued arrays. -/
theorem addf_real {s : Shape} (x y : FVec Ideal s .f32) (hx : AllReal x) (hy : AllReal y) :
    AllReal (addf (F := Ideal) x y) := by
  intro i
  obtain ⟨a, ha⟩ := hx i
  obtain ⟨b, hb⟩ := hy i
  exact ⟨a + b, by show x i + y i = _; rw [ha, hb, EReal.coe_add]⟩

/-- A scatter-add adds finitely many update entries to each operand entry. -/
theorem scatterAdd_real {s si u : Shape} {w : Nat} (d : ScatterDims s si u) (x : FVec Ideal s .f32) (idx : IVec si w)
    (upd : FVec Ideal u .f32) (hx : AllReal x) (hu : AllReal upd) :
    AllReal (Host.scatterAdd (F := Ideal) d x idx upd) := by
  intro i
  obtain ⟨a, ha⟩ := hx i
  obtain ⟨b, hb⟩ := sum_real (Finset.univ.filter fun j => d.resultIdx? j idx = some i) upd (fun j _ => hu j)
  exact ⟨a + b, by
    show x i + ∑ j ∈ Finset.univ.filter (fun j => d.resultIdx? j idx = some i), upd j = _
    rw [ha, hb, EReal.coe_add]⟩

/-- The inverse square root where the argument is positive, zero elsewhere. -/
theorem rsqrt_where_pos_real {s : Shape} (x z0 z1 : FVec Ideal s .f32) (hx : AllReal x)
    (h0 : ∀ i, z0 i = 0) (h1 : ∀ i, z1 i = 0) :
    AllReal (select (cmpf .ogt x z0) (Host.rsqrt x) z1) := by
  intro i
  show ∃ r : ℝ, Scalar.select (Ideal.cmp .ogt (x i) (z0 i)) (Ideal.rsqrt (x i)) (z1 i) = (r : EReal)
  obtain ⟨a, ha⟩ := hx i
  rw [h0 i, h1 i, ha]
  unfold Scalar.select Ideal.cmp
  by_cases hpos : (0 : EReal) < (a : EReal)
  · have : (0 : ℝ) < a := by exact_mod_cast hpos
    simp only [hpos, decide_true, BitVec.ofBool_true, if_true]
    exact rsqrt_real_of_pos a this
  · simp only [hpos, decide_false, BitVec.ofBool_false]
    exact ⟨0, by simp⟩

end Reals

/-! ## The three arrays of the shared prefix -/

open Cert.ReferenceIdeal Cert.ReferenceIdeal.Read in
/-- The edge weights `dinv[src] · w · dinv[dst]`, with unit self-loop weights appended and `dinv` the inverse square
    root of the weighted degree where it is positive and zero elsewhere, are real-valued when the given weights are. -/
theorem norm_real (x1 : (⟨Cert.ReferenceIdeal.S2x625000, .i32⟩ : BufTy).Contents (Elt Ideal))
    (x2 : (⟨Cert.ReferenceIdeal.S625000, .f32⟩ : BufTy).Contents (Elt Ideal)) (h2 : AllReal (S := Cert.ReferenceIdeal.S625000) x2) :
    AllReal (S := Cert.ReferenceIdeal.S675000) (Cert.ReferenceIdeal.Read.val_main_v31 (F := Ideal) x1 x2) := by
  have h7 : AllReal (S := S50000) (val_main_v7 (F := Ideal)) :=
    Reals.bcast_real _ _ _ (Reals.const_one_real _)
  have h8 : AllReal (S := S675000) (val_main_v8 (F := Ideal) x2) := by
    unfold val_main_v8
    refine Reals.concat_real _ _ _ ?_
    intro p hp
    simp only [List.mem_cons, List.not_mem_nil, or_false] at hp
    rcases hp with rfl | rfl
    · exact h2
    · exact h7
  have h9 : AllReal (S := S50000) (val_main_v9 (F := Ideal)) :=
    Reals.bcast_real _ _ _ (Reals.const_zero_real _)
  have h11 : AllReal (S := S50000) (val_main_v11 (F := Ideal) x1 x2) :=
    Reals.scatterAdd_real _ _ _ _ h9 h8
  have h15 : AllReal (S := S50000) (val_main_v15 (F := Ideal) x1 x2) := by
    unfold val_main_v15 val_main_v13 val_main_v14
    refine Reals.rsqrt_where_pos_real _ _ _ h11 ?_ ?_
    · intro i; rw [val_main_v12_apply, val_main_cst_1_apply]; exact Ideal.ofBits_zero_f32
    · intro i; rw [val_main_call0_v1_apply, val_main_call0_v0_apply, val_main_cst_2_apply]; exact Ideal.ofBits_zero_f32
  have h22 : AllReal (S := S675000) (val_main_v22 (F := Ideal) x1 x2) := Reals.gather_real _ _ _ h15
  have h30 : AllReal (S := S675000) (val_main_v30 (F := Ideal) x1 x2) := Reals.gather_real _ _ _ h15
  have h23 : AllReal (S := S675000) (val_main_v23 (F := Ideal) x1 x2) := Reals.mulf_real _ _ h22 h8
  exact Reals.mulf_real _ _ h23 h30

open Cert.ReferenceIdeal Cert.ReferenceIdeal.Read in
/-- The projected features, a finite sum of products of reals at each entry, are real-valued. -/
theorem h_real (x0 : (⟨Cert.ReferenceIdeal.S50000x128, .f32⟩ : BufTy).Contents (Elt Ideal))
    (x4 : (⟨Cert.ReferenceIdeal.S128x128, .f32⟩ : BufTy).Contents (Elt Ideal))
    (h0 : AllReal (S := Cert.ReferenceIdeal.S50000x128) x0) (h4 : AllReal (S := Cert.ReferenceIdeal.S128x128) x4) :
    AllReal (S := Cert.ReferenceIdeal.S50000x128) (Cert.ReferenceIdeal.Read.val_main_v33 (F := Ideal) x0 x4) := by
  intro i
  rw [val_main_v33_apply]
  refine Reals.sum_real _ _ (fun k _ => ?_)
  obtain ⟨a, ha⟩ := h0 (lidx_main_v33 i k)
  obtain ⟨b, hb⟩ := h4 (idx_main_v32 (ridx_main_v33 i k))
  exact ⟨a * b, by rw [val_main_v32_apply, ha, hb, EReal.coe_mul]⟩

/-- Gathering rows, scaling them by real weights, adding them into rows of a zero table and adding a real bias keeps
    every entry real. -/
theorem aggChain_real (h : (⟨Cert.ReferenceIdeal.S50000x128, .f32⟩ : BufTy).Contents (Elt Ideal))
    (nrm : (⟨Cert.ReferenceIdeal.S675000, .f32⟩ : BufTy).Contents (Elt Ideal))
    (s d : (⟨Cert.ReferenceIdeal.S675000, .i32⟩ : BufTy).Contents (Elt Ideal))
    (b5 : (⟨Cert.ReferenceIdeal.S128, .f32⟩ : BufTy).Contents (Elt Ideal))
    (hh : AllReal (S := Cert.ReferenceIdeal.S50000x128) h) (hn : AllReal (S := Cert.ReferenceIdeal.S675000) nrm) (hb : AllReal (S := Cert.ReferenceIdeal.S128) b5) :
    AllReal (S := Cert.ReferenceIdeal.S50000x128) (aggChain (F := Ideal) h nrm s d b5) := by
  unfold aggChain
  refine Reals.addf_real _ _ ?_ ?_
  · refine Reals.scatterAdd_real _ _ _ _ ?_ ?_
    · exact Reals.bcast_real _ _ _ (Reals.const_zero_real _)
    · refine Reals.mulf_real _ _ ?_ ?_
      · exact Reals.bcast_real _ _ _ (Reals.bcast_real _ _ _ hn)
      · exact Reals.gather_real _ _ _ hh
  · exact Reals.bcast_real _ _ _ (Reals.bcast_real _ _ _ hb)

end Cert.GcnNorm

end
-- ==== Proof.TailAlgebra.lean ====
/-
  The two variances agree, over the extended reals, when the entries are real numbers.

  Fix a graph `g` and a feature `d`; write `A` for the nodes counted in `g`, `k` for their number, `c = max k 1`,
  `S = ∑_A x`, `Q = ∑_A x²`, `μ = S / c` and `s` for the scale of the mean. A node counted in `g` reads the statistics
  of `g`, so the reference's variance is `(∑_A (x − s·μ)²) / c = Q/c − 2·s·μ·(S/c) + (k/c)·s²·μ²`. When `A` is not
  empty `k = c`, and this is `Q/c − μ²·(2·s − s²)`, what the kernel cuts off at zero; being a sum of squares over a
  positive number it is not negative, so the cut does nothing. When `A` is empty every sum is zero and both are `0`.
  All the algebra is done in `ℝ`; the extended reals only carry the coercions.
-/
import Mathlib
import Idealize.ShloMosaic.PureOps.Ideal
import Idealize.ShloMosaic.PureOps.Ideal.Laws
import Idealize.ShloMosaic.Lib.ValueIdx
import proofs.«116646_j72258529788100_2_alg».proof.Proof.Spec

noncomputable section

open scoped BigOperators

namespace Cert.GcnNorm

open Idealize.ShloMosaic Idealize.ShloMosaic.ValueIdx
open Cert.RowScatterAdd (hits)
open Cert.RowGather (row)

namespace TailAlgebra

/-! ## The words -/

theorem zeroW_eq : zeroW = ((0 : ℝ) : EReal) := by
  show Ideal.ofBits .f32 0x00000000#32 = _
  rw [Ideal.ofBits_zero_f32, EReal.coe_zero]

theorem oneW_eq : oneW = ((1 : ℝ) : EReal) := by
  show Ideal.ofBits .f32 0x3F800000#32 = _
  simp [Ideal.ofBits, Ideal.ieee, -EReal.coe_mul]; norm_num

theorem twoW_eq : twoW = ((2 : ℝ) : EReal) := by
  show Ideal.ofBits .f32 0x40000000#32 = _
  simp [Ideal.ofBits, Ideal.ieee, -EReal.coe_mul]; norm_num

/-! ## Coercions -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum is the maximum of the coercions. -/
theorem coe_max (a b : ℝ) : ((max a b : ℝ) : EReal) = max (a : EReal) (b : EReal) :=
  EReal.coe_strictMono.monotone.map_max

/-- Division by a nonzero real, of a real. -/
theorem div_real (a : ℝ) {c : ℝ} (hc : c ≠ 0) : Ideal.div (a : EReal) (c : EReal) = ((a / c : ℝ) : EReal) := by
  rw [Ideal.div_coe hc, ← EReal.coe_mul, mul_one_div]

/-! ## The real identity -/

/-- Over a finite set `A` of `k` elements, with `c = max k 1` and `μ = (∑_A f) / c`: the mean square of `f − s·μ`
    is `(∑_A f²)/c − μ²·(2·s − s²)`. -/
theorem var_core {ι : Type*} (A : Finset ι) (f : ι → ℝ) (s : ℝ) :
    (∑ n ∈ A, (f n - s * ((∑ n ∈ A, f n) / max (A.card : ℝ) 1)) * (f n - s * ((∑ n ∈ A, f n) / max (A.card : ℝ) 1)))
        / max (A.card : ℝ) 1
      = (∑ n ∈ A, f n * f n) / max (A.card : ℝ) 1
        - ((∑ n ∈ A, f n) / max (A.card : ℝ) 1 * ((∑ n ∈ A, f n) / max (A.card : ℝ) 1)) * (2 * s - s * s) := by
  rcases A.eq_empty_or_nonempty with rfl | hA
  · simp
  · have hk : (1 : ℝ) ≤ (A.card : ℝ) := by exact_mod_cast hA.card_pos
    rw [max_eq_left hk]
    have hk0 : (A.card : ℝ) ≠ 0 := by linarith
    have hexp : ∀ t : ℝ, (∑ n ∈ A, (f n - t) * (f n - t))
        = (∑ n ∈ A, f n * f n) - 2 * t * (∑ n ∈ A, f n) + (A.card : ℝ) * (t * t) := by
      intro t
      have : ∀ n, (f n - t) * (f n - t) = f n * f n - 2 * t * f n + t * t := fun n => by ring
      simp_rw [this]
      rw [Finset.sum_add_distrib, Finset.sum_sub_distrib, ← Finset.mul_sum, Finset.sum_const, nsmul_eq_mul]
    rw [hexp]
    generalize (∑ n ∈ A, f n) = S
    generalize (∑ n ∈ A, f n * f n) = Q
    generalize (A.card : ℝ) = k at *
    field_simp
    ring

/-- The mean square is not negative. -/
theorem var_nonneg {ι : Type*} (A : Finset ι) (f : ι → ℝ) (t : ℝ) :
    0 ≤ (∑ n ∈ A, (f n - t) * (f n - t)) / max (A.card : ℝ) 1 :=
  div_nonneg (Finset.sum_nonneg fun _ _ => mul_self_nonneg _) (le_trans zero_le_one (le_max_right _ _))

/-! ## The statistics of real arrays -/

section Real

variable (si gi : IVec ⟨2, ![50000, 1]⟩ 32)

/-- The nodes counted in graph `g`. -/
def members (g : Fin 128) : Finset (Fin 50000) := Finset.univ.filter fun n => hits si n g

/-- The count of graph `g` as a real number, at least one. -/
def cntR (g : Fin 128) : ℝ := max ((members si g).card : ℝ) 1

theorem cntR_ne_zero (g : Fin 128) : cntR si g ≠ 0 :=
  ne_of_gt (lt_of_lt_of_le zero_lt_one (le_max_right _ _))

/-- A segment sum of real entries is the real sum over the members. -/
theorem segSum_coe (f : Fin 50000 → ℝ) (g : Fin 128) :
    segSum si (fun n => (f n : EReal)) g = ((∑ n ∈ members si g, f n : ℝ) : EReal) := by
  unfold segSum members
  rw [zeroW_eq, EReal.coe_zero, zero_add, Finset.sum_filter, coe_sum]
  refine Finset.sum_congr rfl fun n _ => ?_
  split_ifs <;> simp

theorem cnt_coe (g : Fin 128) : cnt si g = ((cntR si g : ℝ) : EReal) := by
  unfold cnt cntR
  rw [oneW_eq, segSum_coe si (fun _ => (1 : ℝ)) g, ← coe_max, Finset.sum_const, nsmul_eq_mul, mul_one]

variable (xr : (⟨2, ![50000, 128]⟩ : Shape).Idx → ℝ) (sr : (⟨1, ![128]⟩ : Shape).Idx → ℝ)

/-- The mean of feature `d` over graph `g` as a real number. -/
def meanR (g : Fin 128) (d : Fin 128) : ℝ := (∑ n ∈ members si g, xr (ix2 n d)) / cntR si g

theorem mean_coe (g : Fin 128) (d : Fin 128) :
    mean si (fun i => (xr i : EReal)) g d = ((meanR si xr g d : ℝ) : EReal) := by
  unfold mean meanR
  rw [cnt_coe, segSum_coe si (fun n => xr (ix2 n d)) g, div_real _ (cntR_ne_zero si g)]

theorem ctr_coe (n : Fin 50000) (d : Fin 128) :
    ctr si gi (fun i => (xr i : EReal)) (fun i => (sr i : EReal)) n d
      = ((xr (ix2 n d) - sr (ix1 d) * meanR si xr (row graphs_pos gi n) d : ℝ) : EReal) := by
  unfold ctr
  rw [mean_coe, EReal.coe_sub, EReal.coe_mul]

/-- The reference's variance of real arrays, when a node counted in a graph reads that graph. -/
theorem varCentered_coe (hown : ∀ n g, hits si n g → row graphs_pos gi n = g) (g : Fin 128) (d : Fin 128) :
    varCentered si gi (fun i => (xr i : EReal)) (fun i => (sr i : EReal)) g d
      = (((∑ n ∈ members si g, (xr (ix2 n d) - sr (ix1 d) * meanR si xr g d) * (xr (ix2 n d) - sr (ix1 d) * meanR si xr g d))
            / cntR si g : ℝ) : EReal) := by
  unfold varCentered
  have hsq : (fun n => ctr si gi (fun i => (xr i : EReal)) (fun i => (sr i : EReal)) n d
        * ctr si gi (fun i => (xr i : EReal)) (fun i => (sr i : EReal)) n d)
      = fun n => (((xr (ix2 n d) - sr (ix1 d) * meanR si xr (row graphs_pos gi n) d)
          * (xr (ix2 n d) - sr (ix1 d) * meanR si xr (row graphs_pos gi n) d) : ℝ) : EReal) :=
    funext fun n => by rw [ctr_coe, ← EReal.coe_mul]
  rw [hsq, cnt_coe, segSum_coe si _ g, div_real _ (cntR_ne_zero si g)]
  refine congrArg (fun r : ℝ => (r : EReal)) (congrArg (fun r : ℝ => r / cntR si g) ?_)
  refine Finset.sum_congr rfl fun n hn => ?_
  have h : hits si n g := (Finset.mem_filter.mp hn).2
  rw [hown n g h]

/-- The kernel's variance of real arrays. -/
theorem varMoments_coe (g : Fin 128) (d : Fin 128) :
    varMoments si (fun i => (xr i : EReal)) (fun i => (sr i : EReal)) g d
      = ((max ((∑ n ∈ members si g, xr (ix2 n d) * xr (ix2 n d)) / cntR si g
            - (meanR si xr g d * meanR si xr g d) * (2 * sr (ix1 d) - sr (ix1 d) * sr (ix1 d))) 0 : ℝ) : EReal) := by
  unfold varMoments
  simp_rw [← EReal.coe_mul]
  rw [mean_coe, cnt_coe, segSum_coe si _ g, div_real _ (cntR_ne_zero si g), twoW_eq, zeroW_eq, coe_max]
  simp only [EReal.coe_sub, EReal.coe_mul]

/-- The two variances of real arrays agree. -/
theorem var_eq_coe (hown : ∀ n g, hits si n g → row graphs_pos gi n = g) (g : Fin 128) (d : Fin 128) :
    varMoments si (fun i => (xr i : EReal)) (fun i => (sr i : EReal)) g d
      = varCentered si gi (fun i => (xr i : EReal)) (fun i => (sr i : EReal)) g d := by
  rw [varMoments_coe, varCentered_coe si gi xr sr hown]
  congr 1
  have hcore := var_core (members si g) (fun n => xr (ix2 n d)) (sr (ix1 d))
  have hnn := var_nonneg (members si g) (fun n => xr (ix2 n d)) (sr (ix1 d) * meanR si xr g d)
  unfold meanR cntR at *
  rw [← hcore]
  exact max_eq_left hnn

end Real

end TailAlgebra

/-! ## The statement -/

theorem outMoments_eq_outCentered (si gi : IVec ⟨2, ![50000, 1]⟩ 32)
    (x : (⟨2, ![50000, 128]⟩ : Shape).Idx → EReal) (ms w b : (⟨1, ![128]⟩ : Shape).Idx → EReal)
    (hown : ∀ n g, Cert.RowScatterAdd.hits si n g → Cert.RowGather.row graphs_pos gi n = g)
    (hx : AllReal x) (hms : AllReal ms) (n : Fin 50000) (d : Fin 128) :
    outMoments si gi x ms w b n d = outCentered si gi x ms w b n d := by
  choose xr hxr using hx
  choose sr hsr using hms
  obtain rfl : x = fun i => (xr i : EReal) := funext hxr
  obtain rfl : ms = fun i => (sr i : EReal) := funext hsr
  unfold outMoments outCentered outWith
  rw [TailAlgebra.var_eq_coe si gi xr sr hown]

end Cert.GcnNorm

end
-- ==== Proof.Region0.lean ====
/-
  The first region: the node features times the transposed weights, in ten row blocks of 5000.

  At each of the ten points the body reads rows 5000 t … 5000 t + 4999 of the left array (50000 × 128) and the whole
  right array (128 × 128), and stores their product, a sum of 128 products per entry taken from zero, as the same rows
  of the output. Narrowing a float to a shorter format is the identity over the extended reals, so the entry (p, q) of a
  block is the sum over k of left (p, k) · right (k, q). The ten row blocks fill the output array, so after the last
  point its entry (n, d) is the sum over k of left (n, k) · right (k, d).
-/
import proofs.«116646_j72258529788100_2_alg».proof.Proof.Gen.KernelIdeal.Frame
import proofs.«116646_j72258529788100_2_alg».proof.Proof.Spec
import Idealize.ShloMosaic.Lib.Pipeline.Value
import Idealize.ShloMosaic.Lib.ValueIdx
import Idealize.ShloMosaic.PureOps.Ideal.Laws

noncomputable section
open Idealize.ShloMosaic Idealize.ShloMosaic.TcCoe Idealize.SL.Sem Idealize.ShloMosaic.ValueIdx
open scoped BigOperators

namespace Cert.GcnNorm.K
open Cert.KernelIdeal Cert.KernelIdeal.Gen Cert.GcnNorm
open Idealize.ShloMosaic.Pipeline (Dat)

variable (V : (c : Dev nD) → (b : Ref sig .tc) → Buf (Elt Ideal) ((c : Thread nD τ).loc b))

namespace Region0

/-- The contraction record of the block product, under a short name. -/
abbrev blockDot : DotDims S5000x128 S128x128 S5000x128 := dot_S5000x128_S128x128_S5000x128_1_0_0_1_n_n

theorem lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (i : S5000x128.Idx) (q : blockDot.contr.Idx) : (blockDot.lhsIdx i q 1).val = (q ⟨0, by decide⟩).val :=
  blockDot.lhsIdx_val_of_single rfl i q
theorem rhs_row (i : S5000x128.Idx) (q : blockDot.contr.Idx) : (blockDot.rhsIdx i q 0).val = (q ⟨0, by decide⟩).val :=
  blockDot.rhsIdx_val_of_single rfl i q
theorem rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- One block of the product, entry by entry: row p of the left block against column q of the right one. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply blockDot none _ _ (ix2 p q)).trans ?_
  refine (Equiv.sum_comp (contrEquiv1 blockDot 128 rfl rfl).symm _).symm.trans ?_
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  show x0 (blockDot.lhsIdx (ix2 p q) _) * shapeCast S128x128 x1 shapeCasts_S128x128_S128x128 (blockDot.rhsIdx (ix2 p q) _) = _
  rw [el, er, shapeCast_self]

theorem zero_offsets : (![0, 0] : Fin 2 → Nat) = fun _ => 0 := funext fun a => by fin_cases a <;> rfl

/-- The whole product, entry by entry: row of the left array against column of the right one. -/
abbrev prod (a0 : S50000x128.Idx → EReal) (a1 : S128x128.Idx → EReal) : S50000x128.Idx → EReal :=
  fun i => ∑ k : Fin 128, a0 (ix2 ⟨(i 0).val, idx2_lt0 i⟩ k) * a1 (ix2 k ⟨(i 1).val, idx2_lt1 i⟩)

/-- How the three index maps move over the ten points: the left array's block follows the output's row block, the
    right array's block is always the whole array, and neither moves along the columns. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- A block of the product whose left block is rows 5000 r … 5000 r + 4999 of the left array and whose right block is
    the right array is the same rows of the whole product. -/
theorem block_apply (x0 : Vec Ideal S5000x128 .f32) (x1 : Vec Ideal S128x128 .f32)
    (a0 : S50000x128.Idx → EReal) (a1 : S128x128.Idx → EReal) (r : ℕ) (hr : r ≤ 9)
    (h0 : ∀ (p : Fin 5000) (k : Fin 128), x0 (ix2 p k) = a0 (ix2 ⟨r * 5000 + p.val, by have := p.isLt; omega⟩ k))
    (h1 : ∀ k q : Fin 128, x1 (ix2 k q) = a1 (ix2 k q))
    (p : Fin 5000) (q : Fin 128) (i : S50000x128.Idx) (hi0 : (i 0).val = r * 5000 + p.val) (hi1 : (i 1).val = q.val) :
    k0_pay1 (F := Ideal) x0 x1 (ix2 p q) = prod a0 a1 i := by
  rw [pay_apply]
  refine Finset.sum_congr rfl fun k _ => ?_
  rw [h0, h1]
  have e0 : (⟨r * 5000 + p.val, by have := p.isLt; omega⟩ : Fin 50000) = ⟨(i 0).val, idx2_lt0 i⟩ := Fin.ext hi0.symm
  have e1 : q = ⟨(i 1).val, idx2_lt1 i⟩ := Fin.ext hi1.symm
  rw [e0, e1]

set_option maxHeartbeats 400000 in
/-- What point t writes back is block t of the whole product of the two arrays as the region finds them. -/
theorem flushed_eq (c : Dev nD) (t : Fin cfg0.N) :
    (dat0 (F := Ideal) V c).flushed 2 t
      = ((cfg0.win 2).blk t).view.read (Elt Ideal) (prod (V c main_arg0) (V c main_v32)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = prod (V c main_arg0) (V c main_v32) (((cfg0.win 2).blk t).view.emb (ix2 p q))
  refine block_apply (iblk0 V c 0 t) (iblk0 V c 1 t) (V c main_arg0) (V c main_v32) (win0_2.index t (0 : Fin 2)) e5 ?_ ?_ p q
    (((cfg0.win 2).blk t).view.emb (ix2 p q)) ?_ ?_
  · intro p' k
    show (V c main_arg0 : S50000x128.Idx → EReal) (((cfg0.win 0).blk t).view.emb (ix2 p' k)) = _
    refine congrArg (V c main_arg0 : S50000x128.Idx → EReal) (funext fun a => Fin.ext ?_)
    match a with
    | ⟨0, _⟩ => show win0_0.index t (0 : Fin 2) * 5000 + 1 * p'.val = win0_2.index t (0 : Fin 2) * 5000 + p'.val; omega
    | ⟨1, _⟩ => show win0_0.index t (1 : Fin 2) * 128 + 1 * k.val = k.val; omega
  · intro k q'
    show (V c main_v32 : S128x128.Idx → EReal) (((cfg0.win 1).blk t).view.emb (ix2 k q')) = _
    refine congrArg (V c main_v32 : S128x128.Idx → EReal) (funext fun a => Fin.ext ?_)
    match a with
    | ⟨0, _⟩ => show win0_1.index t (0 : Fin 2) * 128 + 1 * k.val = k.val; omega
    | ⟨1, _⟩ => show win0_1.index t (1 : Fin 2) * 128 + 1 * q'.val = q'.val; omega
  · show win0_2.index t (0 : Fin 2) * 5000 + 1 * p.val = win0_2.index t (0 : Fin 2) * 5000 + p.val; omega
  · show win0_2.index t (1 : Fin 2) * 128 + 1 * q.val = q.val; omega

/-- An entry of the array lies in point t's block exactly when each of its coordinates lies in the block's range. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- Each of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The ten row blocks fill the array: row r lies in block r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the ten points the output array holds the whole product. -/
theorem final (c : Dev nD) :
    (dat0 (F := Ideal) V c).arrAt 2 cfg0.N = prod (V c main_arg0) (V c main_v32) :=
  (dat0 (F := Ideal) V c).arrAt_eq_of_cover 2 (prod (V c main_arg0) (V c main_v32)) (fun t _ => flushed_eq V c t) cover

end Region0

/-- REGION 0: entry (n, d) of the output array is row n of the first array against column d of the second. -/
theorem region0_final (c : Dev nD) (a0 : S50000x128.Idx → EReal) (a1 : S128x128.Idx → EReal) (o : S50000x128.Idx → EReal)
    (h0 : V c main_arg0 = a0) (h1 : V c main_v32 = a1) (ho : (dat0 (F := Ideal) V c).arrAt 2 cfg0.N = o)
    (n : Fin 50000) (d : Fin 128) :
    o (ix2 n d) = ∑ k : Fin 128, a0 (ix2 n k) * a1 (ix2 k d) := by
  subst h0 h1 ho
  refine (congrFun (Region0.final V c) (ix2 n d)).trans ?_
  rfl

end Cert.GcnNorm.K

end
-- ==== Proof.Region1.lean ====
/-
  The pointwise normalisation region, index by index.

  The region walks the 50000 rows in ten blocks of 5000. At a block it reads the same rows of three arrays
  (the convolution's output, the gathered mean, the gathered variance) and the single row of three more (weight,
  bias, mean scale), and writes, at row `p` and feature `q` of the block,
  `max (w q · (x p q − s q · μ p q) · rsqrt (v p q + ε) + b q) 0`.
  Every row lies in exactly the block numbered by its quotient by 5000, so the result array ends holding that
  formula of the six arrays at every row and feature.
-/
import proofs.«116646_j72258529788100_2_alg».proof.Proof.Gen.KernelIdeal.Frame
import proofs.«116646_j72258529788100_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.GcnNorm.K

open Cert.KernelIdeal Cert.KernelIdeal.Gen Cert.GcnNorm
open Idealize.ShloMosaic.Pipeline (Dat)

variable (V : (c : Dev nD) → (b : Ref sig .tc) → Buf (Elt Ideal) ((c : Thread nD τ).loc b))

namespace Region1

/-! ## The block's result at a row and a feature -/

/-- What a block's pointwise operations leave at row `p`, feature `q`: the three row-block operands read there,
    the three single-row operands read at feature `q`. -/
theorem pay_apply (v0 v2 v4 : Vec Ideal S5000x128 .f32) (v6 v8 v10 : Vec Ideal S1x128 .f32) (p : Fin 5000) (q : Fin 128) :
    k1_pay1 (F := Ideal) v0 v2 v4 v6 v8 v10 (ix2 p q)
      = max (v8 (ix2 (0 : Fin 1) q) * (v0 (ix2 p q) - v6 (ix2 (0 : Fin 1) q) * v2 (ix2 p q))
              * Ideal.rsqrt (v4 (ix2 p q) + epsW) + v10 (ix2 (0 : Fin 1) q)) zeroW := by
  unfold k1_pay1
  simp only [shapeCast_self]
  show max (broadcastTo S5000x128 v8 broadcasts_S1x128_S5000x128 (ix2 p q)
              * (v0 (ix2 p q) - broadcastTo S5000x128 v6 broadcasts_S1x128_S5000x128 (ix2 p q) * v2 (ix2 p q))
              * Ideal.rsqrt (v4 (ix2 p q) + epsW) + broadcastTo S5000x128 v10 broadcasts_S1x128_S5000x128 (ix2 p q)) zeroW = _
  rw [broadcastTo_1b_ab_apply v8, broadcastTo_1b_ab_apply v6, broadcastTo_1b_ab_apply v10]

/-- The entry from its six scalars: weight, input, mean scale, mean, variance, bias. -/
def normVal (w x s μ v b : EReal) : EReal := max (w * (x - s * μ) * Ideal.rsqrt (v + epsW) + b) zeroW

/-- The same, at any index of the block. -/
theorem pay_at (v0 v2 v4 : Vec Ideal S5000x128 .f32) (v6 v8 v10 : Vec Ideal S1x128 .f32) (j : S5000x128.Idx) :
    k1_pay1 (F := Ideal) v0 v2 v4 v6 v8 v10 j
      = normVal (v8 (ix2 (0 : Fin 1) (j 1))) (v0 j) (v6 (ix2 (0 : Fin 1) (j 1))) (v2 j) (v4 j) (v10 (ix2 (0 : Fin 1) (j 1))) := by
  obtain ⟨p, q, rfl⟩ : ∃ (p : Fin 5000) (q : Fin 128), j = ix2 p q := ⟨j 0, j 1, eq_ix2 j⟩
  exact pay_apply v0 v2 v4 v6 v8 v10 p q

/-! ## The result array as one function of the six arrays -/

/-- The normalised, scaled, shifted and rectified entry at row `i 0`, feature `i 1`. -/
def normAt (xc mu vr : S50000x128.Idx → EReal) (wr br sr : S1x128.Idx → EReal) : S50000x128.Idx → EReal := fun i =>
  normVal (wr (ix2 (0 : Fin 1) (i 1))) (xc i) (sr (ix2 (0 : Fin 1) (i 1))) (mu i) (vr i) (br (ix2 (0 : Fin 1) (i 1)))

theorem zero_offsets : (![0, 0] : Fin 2 → Nat) = fun _ => 0 := funext fun a => by fin_cases a <;> rfl

/-- Where the blocks sit: at grid point `t` the three row-block operands and the result are at row block `t`,
    column block 0; the three single-row operands at block (0, 0). -/
theorem block_indices : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- At grid point `t`, what is written back is block `t` of `normAt` of the six arrays as the region finds them. -/
theorem flushed_eq (c : Dev nD) (t : Fin cfg1.N) :
    (dat1 V c).flushed 6 t = ((cfg1.win 6).blk t).view.read (Elt Ideal)
      (normAt (V c main_v49) (V c main_v85) (V c main_v92) (V c main_v93) (V c main_v94) (V c main_v95)) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S1x128) zero_offsets]
  obtain ⟨e60, e61, e00, e01, e10, e11, e20, e21, e30, e31, e40, e41, e50, e51⟩ := block_indices t
  funext j
  refine (pay_at _ _ _ _ _ _ j).trans ?_
  have hj0 : (j 0).val < 5000 := (j 0).isLt
  have hj1 : (j 1).val < 128 := (j 1).isLt
  show normVal (V c main_v93 (((cfg1.win 3).blk t).view.emb (ix2 (0 : Fin 1) (j 1))))
          (V c main_v49 (((cfg1.win 0).blk t).view.emb j))
          (V c main_v95 (((cfg1.win 5).blk t).view.emb (ix2 (0 : Fin 1) (j 1))))
          (V c main_v85 (((cfg1.win 1).blk t).view.emb j))
          (V c main_v92 (((cfg1.win 2).blk t).view.emb j))
          (V c main_v94 (((cfg1.win 4).blk t).view.emb (ix2 (0 : Fin 1) (j 1))))
        = normAt (V c main_v49) (V c main_v85) (V c main_v92) (V c main_v93) (V c main_v94) (V c main_v95) (((cfg1.win 6).blk t).view.emb j)
  have h0 : ((cfg1.win 0).blk t).view.emb j = ((cfg1.win 6).blk t).view.emb j := by
    funext a; apply Fin.ext
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * (j 1).val = win1_6.index t (1 : Fin 2) * 128 + 1 * (j 1).val; omega
  have h1 : ((cfg1.win 1).blk t).view.emb j = ((cfg1.win 6).blk t).view.emb j := by
    funext a; apply Fin.ext
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 128 + 1 * (j 1).val = win1_6.index t (1 : Fin 2) * 128 + 1 * (j 1).val; omega
  have h2 : ((cfg1.win 2).blk t).view.emb j = ((cfg1.win 6).blk t).view.emb j := by
    funext a; apply Fin.ext
    match a with
    | ⟨0, _⟩ => show win1_2.index t (0 : Fin 2) * 5000 + 1 * (j 0).val = win1_6.index t (0 : Fin 2) * 5000 + 1 * (j 0).val; omega
    | ⟨1, _⟩ => show win1_2.index t (1 : Fin 2) * 128 + 1 * (j 1).val = win1_6.index t (1 : Fin 2) * 128 + 1 * (j 1).val; omega
  have h3 : ((cfg1.win 3).blk t).view.emb (ix2 (0 : Fin 1) (j 1)) = ix2 (0 : Fin 1) (((cfg1.win 6).blk t).view.emb j 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_6.index t (1 : Fin 2) * 128 + 1 * (j 1).val; omega
  have h4 : ((cfg1.win 4).blk t).view.emb (ix2 (0 : Fin 1) (j 1)) = ix2 (0 : Fin 1) (((cfg1.win 6).blk t).view.emb j 1) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_6.index t (1 : Fin 2) * 128 + 1 * (j 1).val; omega
  have h5 : ((cfg1.win 5).blk t).view.emb (ix2 (0 : Fin 1) (j 1)) = ix2 (0 : Fin 1) (((cfg1.win 6).blk t).view.emb j 1) := by
    funext a; apply Fin.ext
    match a with
    | ⟨0, _⟩ => show win1_5.index t (0 : Fin 2) * 1 + 1 * 0 = 0; omega
    | ⟨1, _⟩ => show win1_5.index t (1 : Fin 2) * 128 + 1 * (j 1).val = win1_6.index t (1 : Fin 2) * 128 + 1 * (j 1).val; omega
  rw [h0, h1, h2, h3, h4, h5]
  rfl

/-! ## From the blocks to the array -/

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v96).slice (win1_6.rect t)).set ↔ _
  rw [View.set_slice_whole, Rect.mem_set_unit]
  exact Iff.rfl

/-- Every row lies in the block numbered by its quotient by 5000. -/
theorem covered (i : S50000x128.Idx) :
    ∃ t : Fin cfg1.N, (cfg1.win 6).flush t = true ∧ i ∈ ((cfg1.win 6).blk t).view.set := by
  have hN : grid1.N = 10 := N_1
  have hi0 : (i 0).val < 50000 := (i 0).isLt
  have hi1 : (i 1).val < 128 := (i 1).isLt
  refine ⟨⟨(i 0).val / 5000, by show (i 0).val / 5000 < grid1.N; omega⟩, flush1_6 _, ?_⟩
  rw [mem_blk]
  obtain ⟨e60, e61, -⟩ := block_indices ⟨(i 0).val / 5000, by show (i 0).val / 5000 < grid1.N; omega⟩
  intro a
  match a with
  | ⟨0, _⟩ =>
    show win1_6.index _ (0 : Fin 2) * 5000 ≤ (i 0).val ∧ (i 0).val < win1_6.index _ (0 : Fin 2) * 5000 + 5000
    rw [e60]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e61]; omega

/-- The result array after the region: `normAt` of the six arrays as the region finds them. -/
theorem final (c : Dev nD) :
    (dat1 V c).arrAt 6 cfg1.N
      = normAt (V c main_v49) (V c main_v85) (V c main_v92) (V c main_v93) (V c main_v94) (V c main_v95) :=
  (dat1 V c).arrAt_eq_of_cover 6 _ (fun t _ => flushed_eq V c t) covered

end Region1

/-- REGION 1: the result array at row `n`, feature `d`. -/
theorem region1_final (c : Dev nD) (xc mu vr : S50000x128.Idx → EReal) (wr br sr : S1x128.Idx → EReal) (o : S50000x128.Idx → EReal)
    (h0 : V c main_v49 = xc) (h1 : V c main_v85 = mu) (h2 : V c main_v92 = vr)
    (h3 : V c main_v93 = wr) (h4 : V c main_v94 = br) (h5 : V c main_v95 = sr)
    (ho : (dat1 (F := Ideal) V c).arrAt 6 cfg1.N = o) (n : Fin 50000) (d : Fin 128) :
    o (ix2 n d)
      = max (wr (ix2 (0 : Fin 1) d) * (xc (ix2 n d) - sr (ix2 (0 : Fin 1) d) * mu (ix2 n d))
              * Ideal.rsqrt (vr (ix2 n d) + epsW) + br (ix2 (0 : Fin 1) d)) zeroW := by
  subst h0 h1 h2 h3 h4 h5 ho
  rw [Region1.final V c]
  rfl

end Cert.GcnNorm.K

end
-- ==== Proof.RefTail.lean ====
/-
  The reference program read index by index.

  Three facts. The convolution's output is the shared chain of host operations applied to the dense product
  `h = node · Wᵀ` (`conv_eq`). That product's entry `(n, d)` is the sum over `k` of `node (n, k) · Wᵀ (k, d)`
  (`h_apply`). And the result's entry `(n, d)` is the centred form of the normalisation (`out_apply`): the
  count of a graph is a segment sum of ones cut off below at one; the mean table divides the segment sum of the
  convolution's output by the count; a node reads the mean of the graph its (wrapped, clamped) number names; the
  variance table divides the segment sum of the squared centred entries by the count; its inverse root, after the
  small constant is added, is read the same way; and the result is the scaled, shifted entry cut off below at zero.
  Each stage is read at one index from the stages it depends on, the three segment sums and the two table reads by
  the general reads of a row scatter-add, a vector scatter-add and a row gather.
-/
import proofs.«116646_j72258529788100_2_alg».proof.Proof.Gen.ReferenceIdeal.Read
import proofs.«116646_j72258529788100_2_alg».proof.Proof.Spec
import proofs.«116646_j72258529788100_2_alg».proof.Proof.Chain
import proofs.«116646_j72258529788100_2_alg».proof.Proof.LibRowScatterAdd
import proofs.«116646_j72258529788100_2_alg».proof.Proof.LibRowGather
import proofs.«116646_j72258529788100_2_alg».proof.Proof.LibVecScatterAdd
import Idealize.ShloMosaic.Lib.ValueIdx
import Idealize.ShloMosaic.Lib.Pipeline.Value
import Idealize.ShloMosaic.PureOps.Ideal.Laws

noncomputable section
open Idealize.ShloMosaic Idealize.ShloMosaic.TcCoe Idealize.SL.Sem Idealize.ShloMosaic.ValueIdx
open scoped BigOperators

namespace Cert.GcnNorm.R
open Cert.ReferenceIdeal Cert.ReferenceIdeal.Read Cert.GcnNorm

variable (x0 : (⟨S50000x128, .f32⟩ : BufTy).Contents (Elt Ideal)) (x1 : (⟨S2x625000, .i32⟩ : BufTy).Contents (Elt Ideal))
  (x2 : (⟨S625000, .f32⟩ : BufTy).Contents (Elt Ideal)) (x3 : (⟨S50000, .i32⟩ : BufTy).Contents (Elt Ideal))
  (x4 : (⟨S128x128, .f32⟩ : BufTy).Contents (Elt Ideal)) (x5 x6 x7 x8 : (⟨S128, .f32⟩ : BufTy).Contents (Elt Ideal))

/-! ### The convolution's output and the dense product -/

theorem conv_eq : val_main_v49 (F := Ideal) x0 x1 x2 x4 x5
    = aggChain (F := Ideal) (val_main_v33 (F := Ideal) x0 x4) (val_main_v31 (F := Ideal) x1 x2) (val_main_v5 (F := Ideal) x1) (val_main_v6 (F := Ideal) x1) x5 := by
  unfold aggChain val_main_v49 val_main_v46 val_main_v48 val_main_v47 val_main_v45 val_main_v44 val_main_v43 val_main_v42 val_main_v41 val_main_v40 val_main_v39 val_main_v38 val_main_v37 val_main_v36 val_main_v35 val_main_v34 val_main_cst_8 val_main_c_6 val_main_c_7
  rfl

theorem h_apply (n : Fin 50000) (d : Fin 128) :
    val_main_v33 (F := Ideal) x0 x4 (ix2 n d) = ∑ k : Fin 128, x0 (ix2 n k) * val_main_v32 (F := Ideal) x4 (ix2 k d) := by
  rw [val_main_v33_apply]
  refine Finset.sum_congr rfl fun k _ => ?_
  have el : lidx_main_v33 (ix2 n d) k = ix2 n k := funext fun a => Fin.ext (by
    match a with
    | ⟨0, _⟩ => rfl
    | ⟨1, _⟩ => rfl)
  have er : ridx_main_v33 (ix2 n d) k = ix2 k d := funext fun a => Fin.ext (by
    match a with
    | ⟨0, _⟩ => rfl
    | ⟨1, _⟩ => rfl)
  rw [el, er]

namespace RefTail

/-! ### The dimension records are the library's -/

theorem rec_scat2 : scatter_S128x128_S50000x1_S50000x128_1_0_0_1
    = Cert.RowScatterAdd.dims 128 50000 128 Facts₀.scatter_S128x128_S50000x1_S50000x128_1_0_0_1_wf := rfl

theorem rec_scat1 : scatter_S128_S50000x1_S50000_n_0_0_1
    = Cert.VecScatterAdd.dims 128 50000 Facts₀.scatter_S128_S50000x1_S50000_n_0_0_1_wf := rfl

theorem rec_gath : gather_S128x128_S50000x1_S50000x128_1_0_n_n_0_1_1128
    = Cert.RowGather.dims 128 50000 128 Facts₀.gather_S128x128_S50000x1_S50000x128_1_0_n_n_0_1_1128_wf := rfl

/-! ### The index operands -/

theorem v52_eq : val_main_v52 (F := Ideal) x3 = scatIdx x3 := rfl
theorem v58_eq : val_main_v58 (F := Ideal) x3 = scatIdx x3 := rfl
theorem v75_eq : val_main_v75 (F := Ideal) x3 = scatIdx x3 := rfl
theorem v67_eq : val_main_v67 (F := Ideal) x3 = gathIdx x3 := by
  unfold val_main_v67 val_main_v66 val_main_v65 val_main_v64 val_main_v63 val_main_v62 val_main_c_13 val_main_c_14 gathIdx
  rfl
theorem v87_eq : val_main_v87 (F := Ideal) x3 = gathIdx x3 := by
  unfold val_main_v87 val_main_v86 val_main_v85 val_main_v84 val_main_v83 val_main_v82 val_main_c_17 val_main_c_18 gathIdx
  rfl

/-! ### The count -/

theorem v55_at (g : Fin 128) : val_main_v55 (F := Ideal) x3 (ix1 g) = cnt (scatIdx x3) g := by
  rw [val_main_v55_apply]
  unfold val_main_v53
  rw [rec_scat1, Cert.VecScatterAdd.host_scatterAdd_apply, v52_eq]
  rw [val_main_v51_apply, val_main_cst_10_apply, val_main_v54_apply, val_main_cst_11_apply]
  have h50 : ∀ e : Fin 50000, val_main_v50 (F := Ideal) (ix1 e) = oneW := fun e => by
    rw [val_main_v50_apply, val_main_cst_9_apply]; rfl
  simp only [h50]
  rfl

/-- The count, broadcast along the features. -/
theorem v60_at (g d : Fin 128) : val_main_v60 (F := Ideal) x3 (ix2 g d) = cnt (scatIdx x3) g := by
  rw [val_main_v60_apply, val_main_v56_apply]
  have e : idx_main_v56 (idx_main_v60 (ix2 g d)) = ix1 g := funext fun a => Fin.ext (by
    match a with
    | ⟨0, _⟩ => rfl)
  rw [e, v55_at]

theorem v77_at (g d : Fin 128) : val_main_v77 (F := Ideal) x3 (ix2 g d) = cnt (scatIdx x3) g := by
  rw [val_main_v77_apply, val_main_v56_apply]
  have e : idx_main_v56 (idx_main_v77 (ix2 g d)) = ix1 g := funext fun a => Fin.ext (by
    match a with
    | ⟨0, _⟩ => rfl)
  rw [e, v55_at]

/-! ### The mean table and its gather -/

theorem v61_at (g d : Fin 128) :
    val_main_v61 (F := Ideal) x0 x1 x2 x3 x4 x5 (ix2 g d)
      = mean (scatIdx x3) (val_main_v49 (F := Ideal) x0 x1 x2 x4 x5) g d := by
  rw [val_main_v61_apply, v60_at]
  unfold val_main_v59
  generalize val_main_v49 (F := Ideal) x0 x1 x2 x4 x5 = X
  rw [rec_scat2, Cert.RowScatterAdd.host_scatterAdd_apply, v58_eq, val_main_v57_apply, val_main_cst_12_apply]
  rfl

theorem v68_at (n : Fin 50000) (d : Fin 128) :
    val_main_v68 (F := Ideal) x0 x1 x2 x3 x4 x5 (ix2 n d)
      = mean (scatIdx x3) (val_main_v49 (F := Ideal) x0 x1 x2 x4 x5) (Cert.RowGather.row graphs_pos (gathIdx x3) n) d := by
  unfold val_main_v68
  rw [rec_gath, Cert.RowGather.gather_apply graphs_pos, v67_eq, v61_at]

/-! ### The centred entry -/

theorem v70_at (n : Fin 50000) (d : Fin 128) : val_main_v70 (F := Ideal) x8 (ix2 n d) = x8 (ix1 d) := by
  rw [val_main_v70_apply, val_main_v69_apply]
  exact congrArg x8 (funext fun a => Fin.ext (by
    match a with
    | ⟨0, _⟩ => rfl))

theorem v72_at (n : Fin 50000) (d : Fin 128) :
    val_main_v72 (F := Ideal) x0 x1 x2 x3 x4 x5 x8 (ix2 n d)
      = ctr (scatIdx x3) (gathIdx x3) (val_main_v49 (F := Ideal) x0 x1 x2 x4 x5) x8 n d := by
  rw [val_main_v72_apply, val_main_v71_apply, v70_at, v68_at]
  rfl

/-! ### The variance table, its inverse root and the gather -/

theorem v78_at (g d : Fin 128) :
    val_main_v78 (F := Ideal) x0 x1 x2 x3 x4 x5 x8 (ix2 g d)
      = varCentered (scatIdx x3) (gathIdx x3) (val_main_v49 (F := Ideal) x0 x1 x2 x4 x5) x8 g d := by
  rw [val_main_v78_apply, v77_at]
  unfold val_main_v76
  rw [rec_scat2, Cert.RowScatterAdd.host_scatterAdd_apply, v75_eq, val_main_v74_apply, val_main_cst_15_apply]
  have h73 : ∀ e : Fin 50000, val_main_v73 (F := Ideal) x0 x1 x2 x3 x4 x5 x8 (ix2 e d)
      = ctr (scatIdx x3) (gathIdx x3) (val_main_v49 (F := Ideal) x0 x1 x2 x4 x5) x8 e d
        * ctr (scatIdx x3) (gathIdx x3) (val_main_v49 (F := Ideal) x0 x1 x2 x4 x5) x8 e d := fun e => by
    rw [val_main_v73_apply, v72_at]; rfl
  simp only [h73]
  generalize val_main_v49 (F := Ideal) x0 x1 x2 x4 x5 = X
  rfl

theorem v81_at (g d : Fin 128) :
    val_main_v81 (F := Ideal) x0 x1 x2 x3 x4 x5 x8 (ix2 g d)
      = Ideal.rsqrt (varCentered (scatIdx x3) (gathIdx x3) (val_main_v49 (F := Ideal) x0 x1 x2 x4 x5) x8 g d + epsW) := by
  rw [val_main_v81_apply, val_main_v80_apply, v78_at, val_main_v79_apply, val_main_cst_16_apply,
    Ideal.hostUnary_rsqrt_def, Ideal.addf_def, Ideal.ofBits_def]

theorem v88_at (n : Fin 50000) (d : Fin 128) :
    val_main_v88 (F := Ideal) x0 x1 x2 x3 x4 x5 x8 (ix2 n d)
      = Ideal.rsqrt (varCentered (scatIdx x3) (gathIdx x3) (val_main_v49 (F := Ideal) x0 x1 x2 x4 x5) x8
          (Cert.RowGather.row graphs_pos (gathIdx x3) n) d + epsW) := by
  unfold val_main_v88
  rw [rec_gath, Cert.RowGather.gather_apply graphs_pos, v87_eq, v81_at]

/-! ### The scale, the shift and the result -/

theorem v90_at (n : Fin 50000) (d : Fin 128) : val_main_v90 (F := Ideal) x6 (ix2 n d) = x6 (ix1 d) := by
  rw [val_main_v90_apply, val_main_v89_apply]
  exact congrArg x6 (funext fun a => Fin.ext (by
    match a with
    | ⟨0, _⟩ => rfl))

theorem v94_at (n : Fin 50000) (d : Fin 128) : val_main_v94 (F := Ideal) x7 (ix2 n d) = x7 (ix1 d) := by
  rw [val_main_v94_apply, val_main_v93_apply]
  exact congrArg x7 (funext fun a => Fin.ext (by
    match a with
    | ⟨0, _⟩ => rfl))

end RefTail

open RefTail in
theorem out_apply (n : Fin 50000) (d : Fin 128) :
    val_main_v96 (F := Ideal) x0 x1 x2 x3 x4 x5 x6 x7 x8 (ix2 n d)
      = outCentered (scatIdx x3) (gathIdx x3) (val_main_v49 (F := Ideal) x0 x1 x2 x4 x5) x8 x6 x7 n d := by
  rw [val_main_v96_apply, val_main_v95_apply, val_main_v92_apply, val_main_v91_apply, v90_at, v72_at, v88_at, v94_at,
    val_main_call1_v0_apply, val_main_call1_cst_apply]
  generalize val_main_v49 (F := Ideal) x0 x1 x2 x4 x5 = X
  rfl

end Cert.GcnNorm.R

end
-- ==== Proof.KHost.lean ====
/-
  The kernel program's buffer contents between the launch and the second region, read back through the fold of
  host stretches and the first region.

  The contents at a boundary are the launch contents pushed through the stretches of host operations before it (and
  through the first region, which rewrites its own three arrays only). A buffer no stretch writes still holds what it
  held at launch: the arguments do. A buffer a stretch writes holds the composed term of the operations that lead to
  it, read over the launch contents: the transposed weight, the edge coefficients, the two index vectors, and, after
  the first nineteen operations of the stretch between the regions, the convolution's output, which is the shared
  message-passing chain applied to the first region's result.
-/
import proofs.«116646_j72258529788100_2_alg».proof.Proof.Gen.KernelIdeal.Frame
import proofs.«116646_j72258529788100_2_alg».proof.Proof.Gen.ReferenceIdeal.Read
import proofs.«116646_j72258529788100_2_alg».proof.Proof.Spec
import proofs.«116646_j72258529788100_2_alg».proof.Proof.Chain
import proofs.«116646_j72258529788100_2_alg».proof.Proof.KHostSplit
import Idealize.ShloMosaic.Lib.StableHlo.Run

noncomputable section
open Idealize.ShloMosaic Idealize.ShloMosaic.TcCoe Idealize.SL.Sem Idealize.ShloMosaic.ValueIdx
open scoped BigOperators

namespace Cert.GcnNorm.K.KHost
open Cert.KernelIdeal Cert.KernelIdeal.Gen Cert.GcnNorm
open Idealize.ShloMosaic.StableHlo

/-- Running two stretches one after the other is running their concatenation. -/
theorem after_append (A B : List (HloOp τ sig (Elt Ideal))) (V : Valuation τ sig (Elt Ideal)) :
    StableHlo.after (A ++ B) V = StableHlo.after B (StableHlo.after A V) := by
  induction A generalizing V with
  | nil => simp only [List.nil_append, StableHlo.after_nil]
  | cons op A ih => simp only [List.cons_append, StableHlo.after_cons]; exact ih _

/-! ## The buffers each stretch writes -/

/-- The first stretch writes these buffers only. -/
def wr0 : List (Ref sig .tc) :=
  [main_v0, main_v1, main_v2, main_v3, main_v4, main_v5, main_v6, main_cst, main_v7, main_v8, main_cst_0, main_v9,
   main_v10, main_v11, main_cst_1, main_v12, main_v13, main_v14, main_cst_2]
/-- The outlined stretch writes these buffers only. -/
def wr1 : List (Ref sig .tc) := [main_call0_v0, main_call0_v1, main_v15]
/-- The third stretch writes these buffers only. -/
def wr2 : List (Ref sig .tc) :=
  [main_c, main_v16, main_v17, main_c_3, main_v18, main_v19, main_v20, main_v21, main_v22, main_v23, main_c_4,
   main_v24, main_v25, main_c_5, main_v26, main_v27, main_v28, main_v29, main_v30, main_v31, main_v32]
/-- The convolution stretch writes these buffers only. -/
def wrC : List (Ref sig .tc) :=
  [main_v34, main_c_6, main_v35, main_v36, main_c_7, main_v37, main_v38, main_v39, main_v40, main_v41, main_v42,
   main_v43, main_cst_8, main_v44, main_v45, main_v46, main_v47, main_v48, main_v49]

/-- A one-buffer write set lies in a list's image when the buffer is in the list. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

/-- A buffer outside the first stretch's write list keeps its contents through it. -/
theorem keeps0 (V : Valuation τ sig (Elt Ideal)) (r : Ref sig .tc) (hr : r ∉ wr0) :
    StableHlo.after (hostOps0 (F := Ideal)) V (Proc.devRef .tc r) = V (Proc.devRef .tc r) :=
  StableHlo.after_of_writes_sub _ V (W := wr0) (by
    simp only [hostOps0, List.Forall, StableHlo.nullary_writes, StableHlo.unary_writes, StableHlo.binary_writes,
      StableHlo.ternary_writes, StableHlo.reshape_writes]
    repeat' apply And.intro
    all_goals exact single_sub_of_mem (by decide)) hr

/-- A buffer outside the outlined stretch's write list keeps its contents through it. -/
theorem keeps1 (V : Valuation τ sig (Elt Ideal)) (r : Ref sig .tc) (hr : r ∉ wr1) :
    StableHlo.after (hostOps0_1 (F := Ideal)) V (Proc.devRef .tc r) = V (Proc.devRef .tc r) :=
  StableHlo.after_of_writes_sub _ V (W := wr1) (by
    simp only [hostOps0_1, List.Forall, StableHlo.nullary_writes, StableHlo.unary_writes, StableHlo.binary_writes,
      StableHlo.ternary_writes, StableHlo.reshape_writes]
    repeat' apply And.intro
    all_goals exact single_sub_of_mem (by decide)) hr

/-- A buffer outside the third stretch's write list keeps its contents through it. -/
theorem keeps2 (V : Valuation τ sig (Elt Ideal)) (r : Ref sig .tc) (hr : r ∉ wr2) :
    StableHlo.after (hostOps0_2 (F := Ideal)) V (Proc.devRef .tc r) = V (Proc.devRef .tc r) :=
  StableHlo.after_of_writes_sub _ V (W := wr2) (by
    simp only [hostOps0_2, List.Forall, StableHlo.nullary_writes, StableHlo.unary_writes, StableHlo.binary_writes,
      StableHlo.ternary_writes, StableHlo.reshape_writes]
    repeat' apply And.intro
    all_goals exact single_sub_of_mem (by decide)) hr

/-- A buffer outside the convolution stretch's write list keeps its contents through it. -/
theorem keepsC (V : Valuation τ sig (Elt Ideal)) (r : Ref sig .tc) (hr : r ∉ wrC) :
    StableHlo.after (opsConv (F := Ideal)) V (Proc.devRef .tc r) = V (Proc.devRef .tc r) :=
  StableHlo.after_of_writes_sub _ V (W := wrC) (by
    simp only [opsConv, List.Forall, StableHlo.nullary_writes, StableHlo.unary_writes, StableHlo.binary_writes,
      StableHlo.ternary_writes, StableHlo.reshape_writes]
    repeat' apply And.intro
    all_goals exact single_sub_of_mem (by decide)) hr

/-! ## What the stretches write, over any contents -/

section Reads
variable (X : Valuation τ sig (Elt Ideal))
variable (x1 : (⟨Cert.ReferenceIdeal.S2x625000, .i32⟩ : BufTy).Contents (Elt Ideal))
variable (x2 : (⟨Cert.ReferenceIdeal.S625000, .f32⟩ : BufTy).Contents (Elt Ideal))

/-- The convolution stretch leaves the shared message-passing chain of what it reads. -/
theorem conv_v49 :
    (StableHlo.after (opsConv (F := Ideal)) X (Proc.devRef .tc main_v49) : S50000x128.Idx → EReal)
      = aggChain (F := Ideal) (X (Proc.devRef .tc main_v33)) (X (Proc.devRef .tc main_v31))
          (X (Proc.devRef .tc main_v5)) (X (Proc.devRef .tc main_v6)) (X (Proc.devRef .tc main_arg5)) := by
  show StableHlo.after opsConv X (Proc.devRef .tc main_v49) = _
  unfold opsConv
  after_results_simp
  unfold aggChain
  rfl

/-- The third stretch leaves the transposed weight. -/
theorem s2_v32 :
    (StableHlo.after (hostOps0_2 (F := Ideal)) X (Proc.devRef .tc main_v32) : S128x128.Idx → EReal)
      = Cert.ReferenceIdeal.Read.val_main_v32 (F := Ideal) (X (Proc.devRef .tc main_arg4)) := by
  show StableHlo.after hostOps0_2 X (Proc.devRef .tc main_v32) = _
  unfold hostOps0_2
  after_results_simp
  unfold Cert.ReferenceIdeal.Read.val_main_v32
  rfl

/-- The first stretch leaves the source numbers, each node's own number appended. -/
theorem s0_v5 (h1 : X (Proc.devRef .tc main_arg1) = x1) :
    (StableHlo.after (hostOps0 (F := Ideal)) X (Proc.devRef .tc main_v5) : S675000.Idx → BitVec 32)
      = Cert.ReferenceIdeal.Read.val_main_v5 (F := Ideal) x1 := by
  subst h1
  show StableHlo.after hostOps0 X (Proc.devRef .tc main_v5) = _
  unfold hostOps0
  after_results_simp
  rfl

/-- The first stretch leaves the target numbers, each node's own number appended. -/
theorem s0_v6 (h1 : X (Proc.devRef .tc main_arg1) = x1) :
    (StableHlo.after (hostOps0 (F := Ideal)) X (Proc.devRef .tc main_v6) : S675000.Idx → BitVec 32)
      = Cert.ReferenceIdeal.Read.val_main_v6 (F := Ideal) x1 := by
  subst h1
  show StableHlo.after hostOps0 X (Proc.devRef .tc main_v6) = _
  unfold hostOps0
  after_results_simp
  rfl

/-- The first stretch leaves the edge weights, a one appended per node. -/
theorem s0_v8 (h2 : X (Proc.devRef .tc main_arg2) = x2) :
    (StableHlo.after (hostOps0 (F := Ideal)) X (Proc.devRef .tc main_v8) : S675000.Idx → EReal)
      = Cert.ReferenceIdeal.Read.val_main_v8 (F := Ideal) x2 := by
  subst h2
  show StableHlo.after hostOps0 X (Proc.devRef .tc main_v8) = _
  unfold hostOps0
  after_results_simp
  rfl

/-- The first stretch leaves the test that a node's weighted degree is positive. -/
theorem s0_v13 (h1 : X (Proc.devRef .tc main_arg1) = x1) (h2 : X (Proc.devRef .tc main_arg2) = x2) :
    (StableHlo.after (hostOps0 (F := Ideal)) X (Proc.devRef .tc main_v13) : (⟨S50000, .i1⟩ : BufTy).Contents (Elt Ideal))
      = Cert.ReferenceIdeal.Read.val_main_v13 (F := Ideal) x1 x2 := by
  subst h1 h2
  show StableHlo.after hostOps0 X (Proc.devRef .tc main_v13) = _
  unfold hostOps0
  after_results_simp
  rfl

/-- The first stretch leaves the inverse square root of a node's weighted degree. -/
theorem s0_v14 (h1 : X (Proc.devRef .tc main_arg1) = x1) (h2 : X (Proc.devRef .tc main_arg2) = x2) :
    (StableHlo.after (hostOps0 (F := Ideal)) X (Proc.devRef .tc main_v14) : S50000.Idx → EReal)
      = Cert.ReferenceIdeal.Read.val_main_v14 (F := Ideal) x1 x2 := by
  subst h1 h2
  show StableHlo.after hostOps0 X (Proc.devRef .tc main_v14) = _
  unfold hostOps0
  after_results_simp
  rfl

/-- The first stretch leaves the zero the outlined stretch takes. -/
theorem s0_cst2 :
    (StableHlo.after (hostOps0 (F := Ideal)) X (Proc.devRef .tc main_cst_2) : S_.Idx → EReal)
      = Cert.ReferenceIdeal.Read.val_main_cst_2 (F := Ideal) := by
  show StableHlo.after hostOps0 X (Proc.devRef .tc main_cst_2) = _
  unfold hostOps0
  after_results_simp
  rfl

/-- The outlined stretch leaves a node's coefficient: the inverse square root where the degree is positive, else
    zero. -/
theorem s1_v15 (h13 : X (Proc.devRef .tc main_v13) = Cert.ReferenceIdeal.Read.val_main_v13 (F := Ideal) x1 x2)
    (h14 : X (Proc.devRef .tc main_v14) = Cert.ReferenceIdeal.Read.val_main_v14 (F := Ideal) x1 x2)
    (hc : X (Proc.devRef .tc main_cst_2) = Cert.ReferenceIdeal.Read.val_main_cst_2 (F := Ideal)) :
    (StableHlo.after (hostOps0_1 (F := Ideal)) X (Proc.devRef .tc main_v15) : S50000.Idx → EReal)
      = Cert.ReferenceIdeal.Read.val_main_v15 (F := Ideal) x1 x2 := by
  have e : (StableHlo.after (hostOps0_1 (F := Ideal)) X (Proc.devRef .tc main_v15) : S50000.Idx → EReal)
      = select (X (Proc.devRef .tc main_v13)) (X (Proc.devRef .tc main_v14))
          (broadcastInDim S50000 ![] bcast_S_S50000 (id (X (Proc.devRef .tc main_cst_2)))) := by
    show StableHlo.after hostOps0_1 X (Proc.devRef .tc main_v15) = _
    unfold hostOps0_1
    after_results_simp
    rfl
  rw [e, h13, h14, hc]
  rfl

/-- The third stretch leaves the edge coefficients: the weight times the coefficients of the two ends. -/
theorem s2_v31 (h5 : X (Proc.devRef .tc main_v5) = Cert.ReferenceIdeal.Read.val_main_v5 (F := Ideal) x1)
    (h6 : X (Proc.devRef .tc main_v6) = Cert.ReferenceIdeal.Read.val_main_v6 (F := Ideal) x1)
    (h8 : X (Proc.devRef .tc main_v8) = Cert.ReferenceIdeal.Read.val_main_v8 (F := Ideal) x2)
    (h15 : X (Proc.devRef .tc main_v15) = Cert.ReferenceIdeal.Read.val_main_v15 (F := Ideal) x1 x2) :
    (StableHlo.after (hostOps0_2 (F := Ideal)) X (Proc.devRef .tc main_v31) : S675000.Idx → EReal)
      = Cert.ReferenceIdeal.Read.val_main_v31 (F := Ideal) x1 x2 := by
  show StableHlo.after hostOps0_2 X (Proc.devRef .tc main_v31) = _
  unfold hostOps0_2
  after_results_simp
  rw [h5, h6, h8, h15]
  rfl

end Reads

/-! ## The fold, buffer by buffer -/

section Fold
variable (m : (ℓ : Loc nD τ sig) → Buf (Elt Ideal) ℓ) (ρ : Dev nD → PrngReg) (c : Dev nD)

/-- A buffer the first stretch leaves alone holds, after it, what it held at launch. -/
theorem W1_keeps (r : Ref sig .tc) (h0 : r ∉ wr0) :
    W1 m ρ c (Proc.devRef .tc r) = m ((c : Thread nD τ).loc r) :=
  (keeps0 _ r h0).trans rfl

/-- The same after the outlined stretch. -/
theorem W2_keeps (r : Ref sig .tc) (h0 : r ∉ wr0) (h1 : r ∉ wr1) :
    W2 m ρ c (Proc.devRef .tc r) = m ((c : Thread nD τ).loc r) :=
  (keeps1 _ r h1).trans (W1_keeps m ρ c r h0)

/-- The same at the first region's entry. -/
theorem W3_keeps (r : Ref sig .tc) (h0 : r ∉ wr0) (h1 : r ∉ wr1) (h2 : r ∉ wr2) :
    W3 m ρ c (Proc.devRef .tc r) = m ((c : Thread nD τ).loc r) :=
  (keeps2 _ r h2).trans (W2_keeps m ρ c r h0 h1)

/-- The same at the first region's exit, for a buffer that is none of its arrays. -/
theorem W4_keeps (r : Ref sig .tc) (h0 : r ∉ wr0) (h1 : r ∉ wr1) (h2 : r ∉ wr2)
    (hA : ∀ w, Pipeline.arrRef spec0 w ≠ r) :
    W4 m ρ c (Proc.devRef .tc r) = m ((c : Thread nD τ).loc r) :=
  (W4_of_ne m ρ c r hA).trans (W3_keeps m ρ c r h0 h1 h2)

/-- The source numbers, from the first stretch on to the first region's exit. -/
theorem W1_v5 : W1 m ρ c (Proc.devRef .tc main_v5)
    = Cert.ReferenceIdeal.Read.val_main_v5 (F := Ideal) (m ((c : Thread nD τ).loc main_arg1)) :=
  s0_v5 (W0 m ρ c) _ rfl
theorem W2_v5 : W2 m ρ c (Proc.devRef .tc main_v5)
    = Cert.ReferenceIdeal.Read.val_main_v5 (F := Ideal) (m ((c : Thread nD τ).loc main_arg1)) :=
  (keeps1 _ main_v5 (by decide)).trans (W1_v5 m ρ c)
theorem W4_v5 : W4 m ρ c (Proc.devRef .tc main_v5)
    = Cert.ReferenceIdeal.Read.val_main_v5 (F := Ideal) (m ((c : Thread nD τ).loc main_arg1)) :=
  (W4_of_ne m ρ c main_v5 (by decide)).trans ((keeps2 _ main_v5 (by decide)).trans (W2_v5 m ρ c))

/-- The target numbers, likewise. -/
theorem W1_v6 : W1 m ρ c (Proc.devRef .tc main_v6)
    = Cert.ReferenceIdeal.Read.val_main_v6 (F := Ideal) (m ((c : Thread nD τ).loc main_arg1)) :=
  s0_v6 (W0 m ρ c) _ rfl
theorem W2_v6 : W2 m ρ c (Proc.devRef .tc main_v6)
    = Cert.ReferenceIdeal.Read.val_main_v6 (F := Ideal) (m ((c : Thread nD τ).loc main_arg1)) :=
  (keeps1 _ main_v6 (by decide)).trans (W1_v6 m ρ c)
theorem W4_v6 : W4 m ρ c (Proc.devRef .tc main_v6)
    = Cert.ReferenceIdeal.Read.val_main_v6 (F := Ideal) (m ((c : Thread nD τ).loc main_arg1)) :=
  (W4_of_ne m ρ c main_v6 (by decide)).trans ((keeps2 _ main_v6 (by decide)).trans (W2_v6 m ρ c))

/-- The padded edge weights after the outlined stretch. -/
theorem W2_v8 : W2 m ρ c (Proc.devRef .tc main_v8)
    = Cert.ReferenceIdeal.Read.val_main_v8 (F := Ideal) (m ((c : Thread nD τ).loc main_arg2)) :=
  (keeps1 _ main_v8 (by decide)).trans (s0_v8 (W0 m ρ c) _ rfl)

/-- The nodes' coefficients after the outlined stretch. -/
theorem W2_v15 : W2 m ρ c (Proc.devRef .tc main_v15)
    = Cert.ReferenceIdeal.Read.val_main_v15 (F := Ideal) (m ((c : Thread nD τ).loc main_arg1))
        (m ((c : Thread nD τ).loc main_arg2)) :=
  s1_v15 (W1 m ρ c) _ _ (s0_v13 (W0 m ρ c) _ _ rfl rfl) (s0_v14 (W0 m ρ c) _ _ rfl rfl) (s0_cst2 (W0 m ρ c))

/-- The edge coefficients at the first region's exit. -/
theorem W4_v31 : W4 m ρ c (Proc.devRef .tc main_v31)
    = Cert.ReferenceIdeal.Read.val_main_v31 (F := Ideal) (m ((c : Thread nD τ).loc main_arg1))
        (m ((c : Thread nD τ).loc main_arg2)) :=
  (W4_of_ne m ρ c main_v31 (by decide)).trans
    (s2_v31 (W2 m ρ c) _ _ (W2_v5 m ρ c) (W2_v6 m ρ c) (W2_v8 m ρ c) (W2_v15 m ρ c))

end Fold

end Cert.GcnNorm.K.KHost

namespace Cert.GcnNorm.K
open Cert.KernelIdeal Cert.KernelIdeal.Gen Cert.GcnNorm
open Cert.GcnNorm.K.KHost

section Host
variable (m : (ℓ : Loc nD τ sig) → Buf (Elt Ideal) ℓ) (ρ : Dev nD → PrngReg)

/-- The contents after the convolution stretch, before the statistics stretch. -/
def X5 (c : Dev nD) : Valuation τ sig (Elt Ideal) := StableHlo.after (opsConv (F := Ideal)) (W4 m ρ c)

theorem W5_eq (c : Dev nD) : W5 m ρ c = StableHlo.after (opsStats (F := Ideal)) (X5 m ρ c) := by
  unfold X5
  show StableHlo.after hostOps1 (W4 m ρ c) = _
  rw [hostOps1_split, after_append]

theorem V3_arg0 (c : Dev nD) : V3 m ρ c main_arg0 = m ((c : Thread nD τ).loc main_arg0) :=
  W3_keeps m ρ c main_arg0 (by decide) (by decide) (by decide)

theorem V3_v32 (c : Dev nD) :
    (V3 m ρ c main_v32 : S128x128.Idx → EReal) = Cert.ReferenceIdeal.Read.val_main_v32 (F := Ideal) (m ((c : Thread nD τ).loc main_arg4)) :=
  (s2_v32 (W2 m ρ c)).trans
    (congrArg (Cert.ReferenceIdeal.Read.val_main_v32 (F := Ideal)) (W2_keeps m ρ c main_arg4 (by decide) (by decide)))

theorem X5_v49 (c : Dev nD) :
    (X5 m ρ c (Proc.devRef .tc main_v49) : S50000x128.Idx → EReal)
      = aggChain (F := Ideal) (W4 m ρ c (Proc.devRef .tc main_v33))
          (Cert.ReferenceIdeal.Read.val_main_v31 (F := Ideal) (m ((c : Thread nD τ).loc main_arg1)) (m ((c : Thread nD τ).loc main_arg2)))
          (Cert.ReferenceIdeal.Read.val_main_v5 (F := Ideal) (m ((c : Thread nD τ).loc main_arg1)))
          (Cert.ReferenceIdeal.Read.val_main_v6 (F := Ideal) (m ((c : Thread nD τ).loc main_arg1)))
          (m ((c : Thread nD τ).loc main_arg5)) := by
  unfold X5
  rw [conv_v49, W4_v31, W4_v5, W4_v6,
    W4_keeps m ρ c main_arg5 (by decide) (by decide) (by decide) (by decide)]

/-- A buffer no stretch up to the convolution's output writes, and that is none of the first region's arrays,
    holds what it held at launch. -/
theorem KHost.X5_keeps (c : Dev nD) (r : Ref sig .tc) (h0 : r ∉ wr0) (h1 : r ∉ wr1) (h2 : r ∉ wr2)
    (hA : ∀ w, Pipeline.arrRef spec0 w ≠ r) (hC : r ∉ wrC) :
    X5 m ρ c (Proc.devRef .tc r) = m ((c : Thread nD τ).loc r) :=
  (keepsC _ r hC).trans (W4_keeps m ρ c r h0 h1 h2 hA)

theorem X5_arg3 (c : Dev nD) : X5 m ρ c (Proc.devRef .tc main_arg3) = m ((c : Thread nD τ).loc main_arg3) :=
  KHost.X5_keeps m ρ c main_arg3 (by decide) (by decide) (by decide) (by decide) (by decide)
theorem X5_arg6 (c : Dev nD) : X5 m ρ c (Proc.devRef .tc main_arg6) = m ((c : Thread nD τ).loc main_arg6) :=
  KHost.X5_keeps m ρ c main_arg6 (by decide) (by decide) (by decide) (by decide) (by decide)
theorem X5_arg7 (c : Dev nD) : X5 m ρ c (Proc.devRef .tc main_arg7) = m ((c : Thread nD τ).loc main_arg7) :=
  KHost.X5_keeps m ρ c main_arg7 (by decide) (by decide) (by decide) (by decide) (by decide)
theorem X5_arg8 (c : Dev nD) : X5 m ρ c (Proc.devRef .tc main_arg8) = m ((c : Thread nD τ).loc main_arg8) :=
  KHost.X5_keeps m ρ c main_arg8 (by decide) (by decide) (by decide) (by decide) (by decide)

end Host

end Cert.GcnNorm.K

end
-- ==== Proof.KStats.lean ====
/-
  The statistics stretch of the host operations between the two regions, read index by index over the extended
  reals, from ANY contents `X` of the buffers it reads.

  From the convolution's output `x` (the contents of `main_v49`), the graph numbers (`main_arg3`) and the mean
  scale `ms` (`main_arg8`) the fifty-seven operations compute, per graph `g` and feature `d`: the count of the
  nodes of `g`, at least one; the mean `segsum(x)/cnt`; the second moment `segsum(x·x)/cnt`; and the variance
  `max (E[x²] − mean·mean·(2·ms − ms·ms)) 0`. The mean and the variance are then gathered per node, at the graph
  the node reads, and the three parameter vectors are laid out as rows of one line.

  Each table is first named as a function of what it reads (`Stats.cntT`, `Stats.avgT`, `Stats.varT`), the
  contents after the stretch are shown to be those functions (`Stats.term_v85` …), and each function is read at an
  index: a segment sum at `(g, d)` is the zero word plus the sum of the rows of the nodes counted in `g`, a gather
  at `(n, d)` is the table at the row node `n` reads, a broadcast is its operand at the coordinates it keeps.
-/
import proofs.«116646_j72258529788100_2_alg».proof.Proof.Gen.KernelIdeal.Launch
import proofs.«116646_j72258529788100_2_alg».proof.Proof.Spec
import proofs.«116646_j72258529788100_2_alg».proof.Proof.Chain
import proofs.«116646_j72258529788100_2_alg».proof.Proof.KHostSplit
import proofs.«116646_j72258529788100_2_alg».proof.Proof.LibRowScatterAdd
import proofs.«116646_j72258529788100_2_alg».proof.Proof.LibRowGather
import proofs.«116646_j72258529788100_2_alg».proof.Proof.LibVecScatterAdd
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.GcnNorm.K

open Cert.KernelIdeal Cert.KernelIdeal.Gen Cert.GcnNorm

namespace Stats

variable {F : FTy → Type} [FloatOps F]

/-- The graph numbers as a column: where the three segment sums add each node. -/
def sIdx (bt : (⟨S50000, .i32⟩ : BufTy).Contents (Elt F)) : (⟨S50000x1, .i32⟩ : BufTy).Contents (Elt F) :=
  broadcastInDim S50000x1 ![0] bcast_S50000_S50000x1_0 bt

/-- The graph numbers with negatives wrapped by 128, as a column: where the two gathers read. -/
def gIdx (bt : (⟨S50000, .i32⟩ : BufTy).Contents (Elt F)) : (⟨S50000x1, .i32⟩ : BufTy).Contents (Elt F) :=
  broadcastInDim S50000x1 ![0] bcast_S50000_S50000x1_0
    (select (cmpi .slt bt (broadcastInDim S50000 ![] bcast_S_S50000 (constantI S_ 32 0#32)))
      (addi bt (broadcastInDim S50000 ![] bcast_S_S50000 (constantI S_ 32 128#32))) bt)

/-- The number of nodes of each graph, at least one. -/
def cntT (bt : (⟨S50000, .i32⟩ : BufTy).Contents (Elt F)) : (⟨S128, .f32⟩ : BufTy).Contents (Elt F) :=
  maximumf
    (Host.scatterAdd scatter_S128_S50000x1_S50000_n_0_0_1
      (broadcastInDim S128 ![] bcast_S_S128 (constant S_ .f32 0x00000000#32))
      (sIdx bt)
      (broadcastInDim S50000 ![] bcast_S_S50000 (constant S_ .f32 0x3F800000#32)))
    (broadcastInDim S128 ![] bcast_S_S128 (constant S_ .f32 0x3F800000#32))

/-- The counts laid out against the table of graphs by features. -/
def cntB (bt : (⟨S50000, .i32⟩ : BufTy).Contents (Elt F)) : (⟨S128x128, .f32⟩ : BufTy).Contents (Elt F) :=
  broadcastInDim S128x128 ![0, 1] bcast_S128x1_S128x128_0_1 (broadcastInDim S128x1 ![0] bcast_S128_S128x1_0 (cntT bt))

/-- The segment sum of the rows of `u` over each graph, divided by the graph's count. -/
def avgT (u : (⟨S50000x128, .f32⟩ : BufTy).Contents (Elt F)) (bt : (⟨S50000, .i32⟩ : BufTy).Contents (Elt F)) :
    (⟨S128x128, .f32⟩ : BufTy).Contents (Elt F) :=
  Host.divf
    (Host.scatterAdd scatter_S128x128_S50000x1_S50000x128_1_0_0_1
      (broadcastInDim S128x128 ![] bcast_S_S128x128 (constant S_ .f32 0x00000000#32)) (sIdx bt) u)
    (cntB bt)

/-- The row `2·ms − ms·ms`. -/
def msRow (sv : (⟨S128, .f32⟩ : BufTy).Contents (Elt F)) : (⟨S1x128, .f32⟩ : BufTy).Contents (Elt F) :=
  subf
    (mulf (broadcastInDim S1x128 ![] bcast_S_S1x128 (constant S_ .f32 0x40000000#32))
      (broadcastInDim S1x128 ![1] bcast_S128_S1x128_1 sv))
    (mulf (broadcastInDim S1x128 ![1] bcast_S128_S1x128_1 sv) (broadcastInDim S1x128 ![1] bcast_S128_S1x128_1 sv))

/-- The table of variances from the moments, cut off at zero. -/
def varT (xc : (⟨S50000x128, .f32⟩ : BufTy).Contents (Elt F)) (bt : (⟨S50000, .i32⟩ : BufTy).Contents (Elt F))
    (sv : (⟨S128, .f32⟩ : BufTy).Contents (Elt F)) : (⟨S128x128, .f32⟩ : BufTy).Contents (Elt F) :=
  maximumf
    (subf (avgT (mulf xc xc) bt)
      (mulf (mulf (avgT xc bt) (avgT xc bt))
        (broadcastInDim S128x128 ![0, 1] bcast_S1x128_S128x128_0_1 (msRow sv))))
    (broadcastInDim S128x128 ![] bcast_S_S128x128 (constant S_ .f32 0x00000000#32))

end Stats

namespace Stats

/-! ### The program's dimension records are the row / vector records of the scatter and gather lemmas -/

theorem scat2_eq : scatter_S128x128_S50000x1_S50000x128_1_0_0_1
    = Cert.RowScatterAdd.dims 128 50000 128 scatter_S128x128_S50000x1_S50000x128_1_0_0_1_wf := rfl
theorem scat1_eq : scatter_S128_S50000x1_S50000_n_0_0_1
    = Cert.VecScatterAdd.dims 128 50000 scatter_S128_S50000x1_S50000_n_0_0_1_wf := rfl
theorem gath_eq : gather_S128x128_S50000x1_S50000x128_1_0_n_n_0_1_1128
    = Cert.RowGather.dims 128 50000 128 gather_S128x128_S50000x1_S50000x128_1_0_n_n_0_1_1128_wf := rfl

theorem sIdx_eq (bt : IVec S50000 32) : sIdx (F := Ideal) bt = scatIdx bt := rfl
theorem gIdx_eq (bt : IVec S50000 32) : gIdx (F := Ideal) bt = gathIdx bt := rfl

/-! ### The stages read at an index -/

/-- A word spread over a whole array is that word at every index. -/
theorem bcast0_apply {t : Shape} (h : S_.BroadcastsInDim t (![] : Fin 0 → Fin t.rank)) (w : BitVec 32) (i : t.Idx) :
    (broadcastInDim t ![] h (constant (F := Ideal) S_ .f32 w) : t.Idx → EReal) i = Ideal.ofBits .f32 w := by
  rw [broadcastInDim_apply _ h _ i (fun a => a.elim0) (fun a => a.elim0)]
  rfl

/-- The host's quotient of two arrays, at an index. -/
theorem hdivf_apply {s : Shape} {φ : FTy} (a b : FVec Ideal s φ) (i : s.Idx) :
    Host.divf a b i = Ideal.div (a i) (b i) := rfl

/-- The count of graph `g`. -/
theorem cntT_apply (bt : IVec S50000 32) (g : Fin 128) :
    (cntT (F := Ideal) bt : S128.Idx → EReal) (ix1 g) = cnt (scatIdx bt) g := by
  unfold cntT
  rw [maximumf_apply, scat1_eq, Cert.VecScatterAdd.host_scatterAdd_apply, bcast0_apply, bcast0_apply]
  simp only [bcast0_apply]
  rfl

/-- The counts laid out against the table: row `g` holds the count of graph `g`. -/
theorem cntB_apply (bt : IVec S50000 32) (g d : Fin 128) :
    (cntB (F := Ideal) bt : S128x128.Idx → EReal) (ix2 g d) = cnt (scatIdx bt) g := by
  unfold cntB
  rw [broadcastInDim_apply _ bcast_S128x1_S128x128_0_1 _ (ix2 g d) (ix2 g (0 : Fin 1)) (fun a => match a with
        | ⟨0, _⟩ => by show g.val = if (128 : Nat) = 1 then 0 else g.val; rw [if_neg (by decide)]
        | ⟨1, _⟩ => by show (0 : Nat) = if (1 : Nat) = 1 then 0 else d.val; rw [if_pos rfl]),
      broadcastInDim_apply _ bcast_S128_S128x1_0 _ (ix2 g (0 : Fin 1)) (ix1 g) (fun a => match a with
        | ⟨0, _⟩ => by show g.val = if (128 : Nat) = 1 then 0 else g.val; rw [if_neg (by decide)]),
      cntT_apply]

/-- A segment sum of rows divided by the counts, at graph `g` and feature `d`. -/
theorem avgT_apply (u : S50000x128.Idx → EReal) (bt : IVec S50000 32) (g d : Fin 128) :
    (avgT (F := Ideal) u bt : S128x128.Idx → EReal) (ix2 g d)
      = Ideal.div (segSum (scatIdx bt) (fun n => u (ix2 n d)) g) (cnt (scatIdx bt) g) := by
  unfold avgT
  rw [hdivf_apply, cntB_apply, scat2_eq, Cert.RowScatterAdd.host_scatterAdd_apply, bcast0_apply]
  rfl

/-- A vector laid out as a row, at feature `d`. -/
theorem row_apply (sv : S128.Idx → EReal) (d : Fin 128) :
    (broadcastInDim S1x128 ![1] bcast_S128_S1x128_1 sv : S1x128.Idx → EReal) (ix2 (0 : Fin 1) d) = sv (ix1 d) :=
  broadcastInDim_apply _ bcast_S128_S1x128_1 sv (ix2 (0 : Fin 1) d) (ix1 d) (fun a => match a with
    | ⟨0, _⟩ => by show d.val = if (128 : Nat) = 1 then 0 else d.val; rw [if_neg (by decide)])

/-- The row `2·ms − ms·ms` at feature `d`. -/
theorem msRow_apply (sv : S128.Idx → EReal) (d : Fin 128) :
    (msRow (F := Ideal) sv : S1x128.Idx → EReal) (ix2 (0 : Fin 1) d) = twoW * sv (ix1 d) - sv (ix1 d) * sv (ix1 d) := by
  unfold msRow
  rw [subf_apply, mulf_apply, mulf_apply, row_apply, bcast0_apply]

/-- The variance table at graph `g` and feature `d`. -/
theorem varT_apply (xc : S50000x128.Idx → EReal) (bt : IVec S50000 32) (sv : S128.Idx → EReal) (g d : Fin 128) :
    (varT (F := Ideal) xc bt sv : S128x128.Idx → EReal) (ix2 g d) = varMoments (scatIdx bt) xc sv g d := by
  unfold varT
  rw [maximumf_apply, subf_apply, mulf_apply, mulf_apply, avgT_apply, avgT_apply, bcast0_apply,
    broadcastInDim_apply _ bcast_S1x128_S128x128_0_1 _ (ix2 g d) (ix2 (0 : Fin 1) d) (fun a => match a with
        | ⟨0, _⟩ => by show (0 : Nat) = if (1 : Nat) = 1 then 0 else g.val; rw [if_pos rfl]
        | ⟨1, _⟩ => by show d.val = if (128 : Nat) = 1 then 0 else d.val; rw [if_neg (by decide)]),
    msRow_apply]
  rfl

end Stats

/-! ### The composed terms of the five results -/

namespace Stats

set_option maxHeartbeats 4000000 in
set_option maxRecDepth 16384 in
/-- The gathered means, as the operations' composed term. -/
theorem term_v85 (X : Valuation τ sig (Elt Ideal)) (xc : S50000x128.Idx → EReal) (bt : IVec S50000 32)
    (hx : X (Proc.devRef .tc main_v49) = xc) (hb : X (Proc.devRef .tc main_arg3) = bt) :
    StableHlo.after (opsStats (F := Ideal)) X (Proc.devRef .tc main_v85)
      = Host.gather gather_S128x128_S50000x1_S50000x128_1_0_n_n_0_1_1128 (avgT (F := Ideal) xc bt) (gIdx (F := Ideal) bt) := by
  subst hx hb
  after_results_simp <;> rfl

set_option maxHeartbeats 4000000 in
set_option maxRecDepth 16384 in
/-- The gathered variances, as the operations' composed term. -/
theorem term_v92 (X : Valuation τ sig (Elt Ideal)) (xc : S50000x128.Idx → EReal) (bt : IVec S50000 32) (sv : S128.Idx → EReal)
    (hx : X (Proc.devRef .tc main_v49) = xc) (hb : X (Proc.devRef .tc main_arg3) = bt) (hs : X (Proc.devRef .tc main_arg8) = sv) :
    StableHlo.after (opsStats (F := Ideal)) X (Proc.devRef .tc main_v92)
      = Host.gather gather_S128x128_S50000x1_S50000x128_1_0_n_n_0_1_1128 (varT (F := Ideal) xc bt sv) (gIdx (F := Ideal) bt) := by
  subst hx hb hs
  after_results_simp <;> rfl

set_option maxHeartbeats 4000000 in
set_option maxRecDepth 16384 in
/-- The three parameter vectors as rows, as the operations' composed terms. -/
theorem term_v93 (X : Valuation τ sig (Elt Ideal)) :
    StableHlo.after (opsStats (F := Ideal)) X (Proc.devRef .tc main_v93)
      = shapeCast S1x128 (X (Proc.devRef .tc main_arg6)) shapeCasts_S128_S1x128 := by
  after_results_simp <;> rfl

set_option maxHeartbeats 4000000 in
set_option maxRecDepth 16384 in
theorem term_v94 (X : Valuation τ sig (Elt Ideal)) :
    StableHlo.after (opsStats (F := Ideal)) X (Proc.devRef .tc main_v94)
      = shapeCast S1x128 (X (Proc.devRef .tc main_arg7)) shapeCasts_S128_S1x128 := by
  after_results_simp <;> rfl

set_option maxHeartbeats 4000000 in
set_option maxRecDepth 16384 in
theorem term_v95 (X : Valuation τ sig (Elt Ideal)) :
    StableHlo.after (opsStats (F := Ideal)) X (Proc.devRef .tc main_v95)
      = shapeCast S1x128 (X (Proc.devRef .tc main_arg8)) shapeCasts_S128_S1x128 := by
  after_results_simp <;> rfl

end Stats

section Readings

variable (X : Valuation τ sig (Elt Ideal))
variable (xc : S50000x128.Idx → EReal) (bt : IVec S50000 32) (wv bv sv : S128.Idx → EReal)

/-! ### The statistics stretch read at an index -/

set_option maxHeartbeats 4000000 in
set_option maxRecDepth 16384 in
theorem stats_v49 (hx : X (Proc.devRef .tc main_v49) = xc) :
    StableHlo.after (opsStats (F := Ideal)) X (Proc.devRef .tc main_v49) = xc := by
  subst hx
  after_results_simp <;> rfl

theorem stats_v85 (hx : X (Proc.devRef .tc main_v49) = xc) (hb : X (Proc.devRef .tc main_arg3) = bt) (n : Fin 50000) (d : Fin 128) :
    (StableHlo.after (opsStats (F := Ideal)) X (Proc.devRef .tc main_v85) : S50000x128.Idx → EReal) (ix2 n d)
      = mean (scatIdx bt) xc (Cert.RowGather.row graphs_pos (gathIdx bt) n) d := by
  rw [Stats.term_v85 X xc bt hx hb, Stats.gath_eq, Cert.RowGather.gather_apply graphs_pos, Stats.gIdx_eq, Stats.avgT_apply]
  rfl

theorem stats_v92 (hx : X (Proc.devRef .tc main_v49) = xc) (hb : X (Proc.devRef .tc main_arg3) = bt)
    (hs : X (Proc.devRef .tc main_arg8) = sv) (n : Fin 50000) (d : Fin 128) :
    (StableHlo.after (opsStats (F := Ideal)) X (Proc.devRef .tc main_v92) : S50000x128.Idx → EReal) (ix2 n d)
      = varMoments (scatIdx bt) xc sv (Cert.RowGather.row graphs_pos (gathIdx bt) n) d := by
  rw [Stats.term_v92 X xc bt sv hx hb hs, Stats.gath_eq, Cert.RowGather.gather_apply graphs_pos, Stats.gIdx_eq, Stats.varT_apply]

theorem stats_v93 (hw : X (Proc.devRef .tc main_arg6) = wv) (d : Fin 128) :
    (StableHlo.after (opsStats (F := Ideal)) X (Proc.devRef .tc main_v93) : S1x128.Idx → EReal) (ix2 (0 : Fin 1) d) = wv (ix1 d) := by
  rw [Stats.term_v93 X, hw]
  exact shapeCast_a_1a_apply wv shapeCasts_S128_S1x128 0 d
theorem stats_v94 (hw : X (Proc.devRef .tc main_arg7) = bv) (d : Fin 128) :
    (StableHlo.after (opsStats (F := Ideal)) X (Proc.devRef .tc main_v94) : S1x128.Idx → EReal) (ix2 (0 : Fin 1) d) = bv (ix1 d) := by
  rw [Stats.term_v94 X, hw]
  exact shapeCast_a_1a_apply bv shapeCasts_S128_S1x128 0 d
theorem stats_v95 (hw : X (Proc.devRef .tc main_arg8) = sv) (d : Fin 128) :
    (StableHlo.after (opsStats (F := Ideal)) X (Proc.devRef .tc main_v95) : S1x128.Idx → EReal) (ix2 (0 : Fin 1) d) = sv (ix1 d) := by
  rw [Stats.term_v95 X, hw]
  exact shapeCast_a_1a_apply sv shapeCasts_S128_S1x128 0 d

end Readings

end Cert.GcnNorm.K

end
-- ==== Proof.lean ====
/-
  The kernel computes a graph convolution followed by a per-graph normalisation and a rectifier, and so does the
  reference; this file proves that at the exact instance (floats as extended reals) the two results are one array.

  Both programs form `h = node · Wᵀ` — the kernel in a blocked matrix-product region over ten row blocks, the
  reference by one host contraction: entry `(n, d)` is `∑ k, node (n, k) · W (d, k)` either way — and then run the
  same sixteen host operations on it (gather the rows of `h` at the edges' sources, scale each by the symmetric
  degree normalisation, add them into the edges' targets, add the bias): the convolution's output `x` is one
  function of `h` on both sides. Under the precondition every float input is a real number, and every operation of
  that prefix keeps entries real (a gather never leaves its table, a segment sum is a finite sum, the inverse root is
  only taken where the degree is positive), so `x` is real-valued.

  From `x` the reference takes, per graph `g` and feature `d`, the count `c` of the graph's nodes (at least one), the
  mean `μ = (∑ x) / c`, the centred entries `x − s·μ` and their mean square as the variance; the kernel takes the
  variance from the moments, `max ((∑ x²) / c − μ·μ·(2·s − s·s)) 0`, gathers mean and variance per node on the host and
  normalises in a second, pointwise region. For real entries the two variances are equal: if the graph has a node
  then `c` is its count and `(∑ (x − s·μ)²) / c = (∑ x²) / c − 2·s·μ·μ + s·s·μ·μ`, which is a sum of squares over a
  positive count and so not negative; if it has none every sum is empty and both are zero. A node counted in graph
  `g` reads graph `g`'s statistics (its number is then in range, so neither the wrap nor the clamp moves it), and a
  node counted nowhere reads the same clamped graph on both sides. Hence entry by entry both results are
  `max (w·(x − s·μ)·rsqrt (var + ε) + b) 0` with the same `var`.

  The frames of the two kernel programs are the generated ones; the reference's is its run with the result dropped;
  the idealization rewrote nothing, so what it preserves is trivial.
-/
import proofs.«116646_j72258529788100_2_alg».proof.Defs
import proofs.«116646_j72258529788100_2_alg».proof.Proof.Gen.Kernel
import proofs.«116646_j72258529788100_2_alg».proof.Proof.Gen.Kernel.Skeleton
import proofs.«116646_j72258529788100_2_alg».proof.Proof.Gen.Kernel.Launch
import proofs.«116646_j72258529788100_2_alg».proof.Proof.Gen.Kernel.Points
import proofs.«116646_j72258529788100_2_alg».proof.Proof.Gen.Kernel.Frame
import proofs.«116646_j72258529788100_2_alg».proof.Proof.Gen.KernelIdeal
import proofs.«116646_j72258529788100_2_alg».proof.Proof.Gen.KernelIdeal.Skeleton
import proofs.«116646_j72258529788100_2_alg».proof.Proof.Gen.KernelIdeal.Launch
import proofs.«116646_j72258529788100_2_alg».proof.Proof.Gen.KernelIdeal.Points
import proofs.«116646_j72258529788100_2_alg».proof.Proof.Gen.KernelIdeal.Frame
import proofs.«116646_j72258529788100_2_alg».proof.Proof.Gen.ReferenceIdeal
import proofs.«116646_j72258529788100_2_alg».proof.Proof.Gen.Pre_finite_inputs
import proofs.«116646_j72258529788100_2_alg».proof.Proof.Gen.ReferenceIdeal.Run
import proofs.«116646_j72258529788100_2_alg».proof.Proof.Gen.ReferenceIdeal.Read
import proofs.«116646_j72258529788100_2_alg».proof.Proof.Spec
import proofs.«116646_j72258529788100_2_alg».proof.Proof.Chain
import proofs.«116646_j72258529788100_2_alg».proof.Proof.KHostSplit
import proofs.«116646_j72258529788100_2_alg».proof.Proof.KRun
import proofs.«116646_j72258529788100_2_alg».proof.Proof.OwnGraph
import proofs.«116646_j72258529788100_2_alg».proof.Proof.PreReal
import proofs.«116646_j72258529788100_2_alg».proof.Proof.Reals
import proofs.«116646_j72258529788100_2_alg».proof.Proof.TailAlgebra
import proofs.«116646_j72258529788100_2_alg».proof.Proof.Region0
import proofs.«116646_j72258529788100_2_alg».proof.Proof.Region1
import proofs.«116646_j72258529788100_2_alg».proof.Proof.RefTail
import proofs.«116646_j72258529788100_2_alg».proof.Proof.KHost
import proofs.«116646_j72258529788100_2_alg».proof.Proof.KStats
import Idealize.ShloMosaic.Lib.Pipeline.Value
import Idealize.ShloMosaic.Adequacy
import Idealize.ShloMosaic.Init

noncomputable section

open Idealize.ShloMosaic Idealize.ShloMosaic.TcCoe Idealize.SL.Sem Idealize.ShloMosaic.ValueIdx
open scoped BigOperators

namespace Cert.GcnNorm.K
open Cert.KernelIdeal Cert.KernelIdeal.Gen Cert.GcnNorm

variable (m : (ℓ : Loc nD τ sig) → Buf (Elt Ideal) ℓ) (ρ : Dev nD → PrngReg)

/-- The matrix-product region leaves the reference's `h`: entry `(n, d)` of its result array is the sum over `k` of
    `node (n, k) · Wᵀ (k, d)`, which is the host's contraction read at that entry. -/
theorem W4_v33 (c : Dev nD) :
    (W4 m ρ c (Proc.devRef .tc main_v33) : S50000x128.Idx → EReal)
      = Cert.ReferenceIdeal.Read.val_main_v33 (F := Ideal) (m ((c : Thread nD τ).loc main_arg0)) (m ((c : Thread nD τ).loc main_arg4)) := by
  funext i
  obtain ⟨n, d, rfl⟩ : ∃ (n : Fin 50000) (d : Fin 128), i = ix2 n d := ⟨i 0, i 1, eq_ix2 i⟩
  rw [Cert.GcnNorm.R.h_apply]
  exact region0_final (V3 m ρ) c _ _ _ (V3_arg0 m ρ c) (V3_v32 m ρ c) (W4_arr m ρ c 2).symm n d

/-- The convolution's output in the kernel's program is the reference's: the same sixteen operations of the same `h`. -/
theorem X5_conv (c : Dev nD) :
    (X5 m ρ c (Proc.devRef .tc main_v49) : S50000x128.Idx → EReal)
      = Cert.ReferenceIdeal.Read.val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  rw [Cert.GcnNorm.R.conv_eq, X5_v49 m ρ c, W4_v33 m ρ c]

/-- The kernel's result at entry `(n, d)`: the normalisation region's pointwise formula of the convolution's output,
    the gathered mean and moment variance of the graph the node reads, and the three parameter rows. -/
theorem result_apply (c : Dev nD) (n : Fin 50000) (d : Fin 128) :
    (W6 m ρ c (Proc.devRef .tc main_v96) : S50000x128.Idx → EReal) (ix2 n d)
      = outMoments (scatIdx (m ((c : Thread nD τ).loc main_arg3))) (gathIdx (m ((c : Thread nD τ).loc main_arg3))) (X5 m ρ c (Proc.devRef .tc main_v49))
          (m ((c : Thread nD τ).loc main_arg8)) (m ((c : Thread nD τ).loc main_arg6)) (m ((c : Thread nD τ).loc main_arg7)) n d := by
  have hX : ∀ b : Ref sig .tc, V5 m ρ c b = StableHlo.after (opsStats (F := Ideal)) (X5 m ρ c) (Proc.devRef .tc b) :=
    fun b => congrFun (W5_eq m ρ c) _
  have e49 : (V5 m ρ c main_v49 : S50000x128.Idx → EReal) = X5 m ρ c (Proc.devRef .tc main_v49) :=
    (hX main_v49).trans (stats_v49 (X5 m ρ c) _ rfl)
  have e85 := (congrFun (hX main_v85) (ix2 n d)).trans (stats_v85 (X5 m ρ c) _ _ rfl (X5_arg3 m ρ c) n d)
  have e92 := (congrFun (hX main_v92) (ix2 n d)).trans (stats_v92 (X5 m ρ c) _ _ _ rfl (X5_arg3 m ρ c) (X5_arg8 m ρ c) n d)
  have e93 := (congrFun (hX main_v93) (ix2 (0 : Fin 1) d)).trans (stats_v93 (X5 m ρ c) _ (X5_arg6 m ρ c) d)
  have e94 := (congrFun (hX main_v94) (ix2 (0 : Fin 1) d)).trans (stats_v94 (X5 m ρ c) _ (X5_arg7 m ρ c) d)
  have e95 := (congrFun (hX main_v95) (ix2 (0 : Fin 1) d)).trans (stats_v95 (X5 m ρ c) _ (X5_arg8 m ρ c) d)
  refine (region1_final (V5 m ρ) c _ _ _ _ _ _ _ rfl rfl rfl rfl rfl rfl (W6_arr m ρ c 6).symm n d).trans ?_
  rw [e85, e92, e93, e94, e95, e49]
  rfl

end Cert.GcnNorm.K

namespace Cert.GcnNorm
open Cert.KernelIdeal Cert.KernelIdeal.Gen

/-- The two programs' results are one array: entry by entry the reference's centred-variance formula and the
    kernel's moment formula of the same real-valued convolution output. -/
theorem bridge (m : (ℓ : Loc nD τ sig) → Buf (Elt Ideal) ℓ) (ρ : Dev nD → PrngReg) (hpre : Cert.Pre_KernelIdeal m) (c : Dev nD) :
    Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      = W6 m ρ c (Proc.devRef .tc main_v96) := by
  funext i
  obtain ⟨n, d, rfl⟩ : ∃ (n : Fin 50000) (d : Fin 128), i = ix2 n d := ⟨i 0, i 1, eq_ix2 i⟩
  obtain ⟨r0, r2, r4, r5, r8⟩ := inputs_real m hpre c
  rw [Cert.GcnNorm.R.out_apply]
  refine Eq.trans ?_ (K.result_apply m ρ c n d).symm
  rw [K.X5_conv m ρ c]
  refine (outMoments_eq_outCentered _ _ _ _ _ _ (fun n g => reads_own_graph _ n g) ?_ r8 n d).symm
  rw [Cert.GcnNorm.R.conv_eq]
  exact aggChain_real _ _ _ _ _ (h_real _ _ r0 r4) (norm_real _ _ r2) r5

end Cert.GcnNorm

namespace Cert.Proof

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Gen.W6 m ρ c (Proc.devRef .tc Cert.KernelIdeal.main_v96),
    Cert.GcnNorm.K.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v96_eq, a0, a1, a2, a3, a4, a5, a6, a7, a8]
  exact Cert.GcnNorm.bridge m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
